-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v91)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x133 : Shape := ⟨2, ![65536, 133]⟩
abbrev S131072x147 : Shape := ⟨2, ![131072, 147]⟩
abbrev S65536x6 : Shape := ⟨2, ![65536, 6]⟩
abbrev S131072 : Shape := ⟨1, ![131072]⟩
abbrev S65536 : Shape := ⟨1, ![65536]⟩
abbrev S300x147 : Shape := ⟨2, ![300, 147]⟩
abbrev S300x300 : Shape := ⟨2, ![300, 300]⟩
abbrev S300x433 : Shape := ⟨2, ![300, 433]⟩
abbrev S300 : Shape := ⟨1, ![300]⟩
abbrev S_ : Shape := ⟨0, ![]⟩

class Facts : Prop where
  bcast_S_S65536x133 : S_.BroadcastsInDim S65536x133 (![] : Fin 0 → Fin S65536x133.rank)
  reducesTo_S65536x133_S_d0_1 : S65536x133.ReducesTo [0, 1] S_
  h_S_ : 0 < S_.numel
  bcast_S_S131072x147 : S_.BroadcastsInDim S131072x147 (![] : Fin 0 → Fin S131072x147.rank)
  reducesTo_S131072x147_S_d0_1 : S131072x147.ReducesTo [0, 1] S_
  bcast_S_S300x147 : S_.BroadcastsInDim S300x147 (![] : Fin 0 → Fin S300x147.rank)
  reducesTo_S300x147_S_d0_1 : S300x147.ReducesTo [0, 1] S_
  bcast_S_S300x300 : S_.BroadcastsInDim S300x300 (![] : Fin 0 → Fin S300x300.rank)
  reducesTo_S300x300_S_d0_1 : S300x300.ReducesTo [0, 1] S_
  bcast_S_S300x433 : S_.BroadcastsInDim S300x433 (![] : Fin 0 → Fin S300x433.rank)
  reducesTo_S300x433_S_d0_1 : S300x433.ReducesTo [0, 1] S_
  bcast_S_S300 : S_.BroadcastsInDim S300 (![] : Fin 0 → Fin S300.rank)
  reducesTo_S300_S_d0 : S300.ReducesTo [0] S_

variable [Facts]

def fn_part1 {F : FTy → Type} [FloatOps F] (main_arg8 : FVec F S300x433 .f32) (main_arg9 : FVec F S300 .f32) (main_v13 : IVec S_ 1) (main_v16 : IVec S300x300 1) : IVec S_ 1 :=
  let main_c_5 : IVec S_ 1 := constantI S_ 1 1#1
  let main_v17 : IVec S_ 1 := (fun x v => Host.reduce IntOp.andi x v reducesTo_S300x300_S_d0_1 h_S_) main_v16 main_c_5
  let main_v18 : IVec S_ 1 := andi main_v13 main_v17
  let main_v19 : FVec F S300x433 .f32 := Host.absf main_arg8
  let main_cst_6 : FVec F S_ .f32 := constant S_ .f32 0x7F800000#32
  let main_v20 : FVec F S300x433 .f32 := broadcastInDim S300x433 ![] bcast_S_S300x433 main_cst_6
  let main_v21 : IVec S300x433 1 := cmpf .olt main_v19 main_v20
  let main_c_7 : IVec S_ 1 := constantI S_ 1 1#1
  let main_v22 : IVec S_ 1 := (fun x v => Host.reduce IntOp.andi x v reducesTo_S300x433_S_d0_1 h_S_) main_v21 main_c_7
  let main_v23 : IVec S_ 1 := andi main_v18 main_v22
  let main_v24 : FVec F S300 .f32 := Host.absf main_arg9
  let main_cst_8 : FVec F S_ .f32 := constant S_ .f32 0x7F800000#32
  let main_v25 : FVec F S300 .f32 := broadcastInDim S300 ![] bcast_S_S300 main_cst_8
  let main_v26 : IVec S300 1 := cmpf .olt main_v24 main_v25
  let main_c_9 : IVec S_ 1 := constantI S_ 1 1#1
  let main_v27 : IVec S_ 1 := (fun x v => Host.reduce IntOp.andi x v reducesTo_S300_S_d0 h_S_) main_v26 main_c_9
  let main_v28 : IVec S_ 1 := andi main_v23 main_v27
  main_v28

def fn {F : FTy → Type} [FloatOps F] (main_arg0 : FVec F S65536x133 .f32) (main_arg1 : FVec F S131072x147 .f32) (main_arg2 : IVec S65536x6 32) (main_arg3 : IVec S131072 32) (main_arg4 : IVec S131072 32) (main_arg5 : IVec S65536 32) (main_arg6 : FVec F S300x147 .f32) (main_arg7 : FVec F S300x300 .f32) (main_arg8 : FVec F S300x433 .f32) (main_arg9 : FVec F S300 .f32) : IVec S_ 1 :=
  let main_v0 : FVec F S65536x133 .f32 := Host.absf main_arg0
  let main_cst : FVec F S_ .f32 := constant S_ .f32 0x7F800000#32
  let main_v1 : FVec F S65536x133 .f32 := broadcastInDim S65536x133 ![] bcast_S_S65536x133 main_cst
  let main_v2 : IVec S65536x133 1 := cmpf .olt main_v0 main_v1
  let main_c : IVec S_ 1 := constantI S_ 1 1#1
  let main_v3 : IVec S_ 1 := (fun x v => Host.reduce IntOp.andi x v reducesTo_S65536x133_S_d0_1 h_S_) main_v2 main_c
  let main_v4 : FVec F S131072x147 .f32 := Host.absf main_arg1
  let main_cst_0 : FVec F S_ .f32 := constant S_ .f32 0x7F800000#32
  let main_v5 : FVec F S131072x147 .f32 := broadcastInDim S131072x147 ![] bcast_S_S131072x147 main_cst_0
  let main_v6 : IVec S131072x147 1 := cmpf .olt main_v4 main_v5
  let main_c_1 : IVec S_ 1 := constantI S_ 1 1#1
  let main_v7 : IVec S_ 1 := (fun x v => Host.reduce IntOp.andi x v reducesTo_S131072x147_S_d0_1 h_S_) main_v6 main_c_1
  let main_v8 : IVec S_ 1 := andi main_v3 main_v7
  let main_v9 : FVec F S300x147 .f32 := Host.absf main_arg6
  let main_cst_2 : FVec F S_ .f32 := constant S_ .f32 0x7F800000#32
  let main_v10 : FVec F S300x147 .f32 := broadcastInDim S300x147 ![] bcast_S_S300x147 main_cst_2
  let main_v11 : IVec S300x147 1 := cmpf .olt main_v9 main_v10
  let main_c_3 : IVec S_ 1 := constantI S_ 1 1#1
  let main_v12 : IVec S_ 1 := (fun x v => Host.reduce IntOp.andi x v reducesTo_S300x147_S_d0_1 h_S_) main_v11 main_c_3
  let main_v13 : IVec S_ 1 := andi main_v8 main_v12
  let main_v14 : FVec F S300x300 .f32 := Host.absf main_arg7
  let main_cst_4 : FVec F S_ .f32 := constant S_ .f32 0x7F800000#32
  let main_v15 : FVec F S300x300 .f32 := broadcastInDim S300x300 ![] bcast_S_S300x300 main_cst_4
  let main_v16 : IVec S300x300 1 := cmpf .olt main_v14 main_v15
  fn_part1 (F := F) main_arg8 main_arg9 main_v13 main_v16
-- ==== Kernel.lean ====
abbrev S65536x133 : Shape := ⟨2, ![65536, 133]⟩
abbrev S131072x147 : Shape := ⟨2, ![131072, 147]⟩
abbrev S65536x6 : Shape := ⟨2, ![65536, 6]⟩
abbrev S131072 : Shape := ⟨1, ![131072]⟩
abbrev S65536 : Shape := ⟨1, ![65536]⟩
abbrev S300x147 : Shape := ⟨2, ![300, 147]⟩
abbrev S300x300 : Shape := ⟨2, ![300, 300]⟩
abbrev S300x433 : Shape := ⟨2, ![300, 433]⟩
abbrev S300 : Shape := ⟨1, ![300]⟩
abbrev S147x300 : Shape := ⟨2, ![147, 300]⟩
abbrev S433x300 : Shape := ⟨2, ![433, 300]⟩
abbrev S133x300 : Shape := ⟨2, ![133, 300]⟩
abbrev S131072x300 : Shape := ⟨2, ![131072, 300]⟩
abbrev S2048x147 : Shape := ⟨2, ![2048, 147]⟩
abbrev S2048x300 : Shape := ⟨2, ![2048, 300]⟩
abbrev S_ : Shape := ⟨0, ![]⟩
abbrev S65536x6x1 : Shape := ⟨3, ![65536, 6, 1]⟩
abbrev S65536x6x300 : Shape := ⟨3, ![65536, 6, 300]⟩
abbrev S65536x300 : Shape := ⟨2, ![65536, 300]⟩
abbrev S131072x1 : Shape := ⟨2, ![131072, 1]⟩
abbrev S1x300 : Shape := ⟨2, ![1, 300]⟩
abbrev S2048x133 : Shape := ⟨2, ![2048, 133]⟩
abbrev S65536x1 : Shape := ⟨2, ![65536, 1]⟩
abbrev S2048 : Shape := ⟨1, ![2048]⟩
abbrev S2048x1 : Shape := ⟨2, ![2048, 1]⟩

abbrev nBuf : Space → Nat
  | .hbm => 124
  | .vmem => 30
  | .smem => 0
  | _ => 0

abbrev bufTy : (tb : Table) → Fin (tcTables nBuf tb) → BufTy
  | .hbm, ⟨0, _⟩ => ⟨S65536x133, .f32⟩
  | .hbm, ⟨1, _⟩ => ⟨S131072x147, .f32⟩
  | .hbm, ⟨2, _⟩ => ⟨S65536x6, .i32⟩
  | .hbm, ⟨3, _⟩ => ⟨S131072, .i32⟩
  | .hbm, ⟨4, _⟩ => ⟨S131072, .i32⟩
  | .hbm, ⟨5, _⟩ => ⟨S65536, .i32⟩
  | .hbm, ⟨6, _⟩ => ⟨S300x147, .f32⟩
  | .hbm, ⟨7, _⟩ => ⟨S300x300, .f32⟩
  | .hbm, ⟨8, _⟩ => ⟨S300x433, .f32⟩
  | .hbm, ⟨9, _⟩ => ⟨S300, .f32⟩
  | .hbm, ⟨10, _⟩ => ⟨S147x300, .f32⟩
  | .hbm, ⟨11, _⟩ => ⟨S147x300, .bf16⟩
  | .hbm, ⟨12, _⟩ => ⟨S300x300, .f32⟩
  | .hbm, ⟨13, _⟩ => ⟨S300x300, .bf16⟩
  | .hbm, ⟨14, _⟩ => ⟨S433x300, .f32⟩
  | .hbm, ⟨15, _⟩ => ⟨S133x300, .f32⟩
  | .hbm, ⟨16, _⟩ => ⟨S133x300, .bf16⟩
  | .hbm, ⟨17, _⟩ => ⟨S300x300, .f32⟩
  | .hbm, ⟨18, _⟩ => ⟨S300x300, .bf16⟩
  | .hbm, ⟨19, _⟩ => ⟨S131072x300, .bf16⟩
  | .hbm, ⟨20, _⟩ => ⟨S131072x300, .bf16⟩
  | .hbm, ⟨21, _⟩ => ⟨S_, .i32⟩
  | .hbm, ⟨22, _⟩ => ⟨S65536x6, .i32⟩
  | .hbm, ⟨23, _⟩ => ⟨S65536x6, .i1⟩
  | .hbm, ⟨24, _⟩ => ⟨S_, .i32⟩
  | .hbm, ⟨25, _⟩ => ⟨S65536x6, .i32⟩
  | .hbm, ⟨26, _⟩ => ⟨S65536x6, .i32⟩
  | .hbm, ⟨27, _⟩ => ⟨S65536x6, .i32⟩
  | .hbm, ⟨28, _⟩ => ⟨S65536x6x1, .i32⟩
  | .hbm, ⟨29, _⟩ => ⟨S65536x6x300, .bf16⟩
  | .hbm, ⟨30, _⟩ => ⟨S65536x6x300, .f32⟩
  | .hbm, ⟨31, _⟩ => ⟨S_, .f32⟩
  | .hbm, ⟨32, _⟩ => ⟨S65536x300, .f32⟩
  | .hbm, ⟨33, _⟩ => ⟨S65536x300, .bf16⟩
  | .hbm, ⟨34, _⟩ => ⟨S_, .i32⟩
  | .hbm, ⟨35, _⟩ => ⟨S131072, .i32⟩
  | .hbm, ⟨36, _⟩ => ⟨S131072, .i1⟩
  | .hbm, ⟨37, _⟩ => ⟨S_, .i32⟩
  | .hbm, ⟨38, _⟩ => ⟨S131072, .i32⟩
  | .hbm, ⟨39, _⟩ => ⟨S131072, .i32⟩
  | .hbm, ⟨40, _⟩ => ⟨S131072, .i32⟩
  | .hbm, ⟨41, _⟩ => ⟨S131072x1, .i32⟩
  | .hbm, ⟨42, _⟩ => ⟨S131072x300, .bf16⟩
  | .hbm, ⟨43, _⟩ => ⟨S_, .i32⟩
  | .hbm, ⟨44, _⟩ => ⟨S131072, .i32⟩
  | .hbm, ⟨45, _⟩ => ⟨S131072, .i1⟩
  | .hbm, ⟨46, _⟩ => ⟨S_, .i32⟩
  | .hbm, ⟨47, _⟩ => ⟨S131072, .i32⟩
  | .hbm, ⟨48, _⟩ => ⟨S131072, .i32⟩
  | .hbm, ⟨49, _⟩ => ⟨S131072, .i32⟩
  | .hbm, ⟨50, _⟩ => ⟨S131072x1, .i32⟩
  | .hbm, ⟨51, _⟩ => ⟨S131072x300, .bf16⟩
  | .hbm, ⟨52, _⟩ => ⟨S131072x300, .f32⟩
  | .hbm, ⟨53, _⟩ => ⟨S131072x300, .f32⟩
  | .hbm, ⟨54, _⟩ => ⟨S131072x300, .f32⟩
  | .hbm, ⟨55, _⟩ => ⟨S131072x300, .bf16⟩
  | .hbm, ⟨56, _⟩ => ⟨S131072x300, .bf16⟩
  | .hbm, ⟨57, _⟩ => ⟨S_, .i32⟩
  | .hbm, ⟨58, _⟩ => ⟨S65536x6, .i32⟩
  | .hbm, ⟨59, _⟩ => ⟨S65536x6, .i1⟩
  | .hbm, ⟨60, _⟩ => ⟨S_, .i32⟩
  | .hbm, ⟨61, _⟩ => ⟨S65536x6, .i32⟩
  | .hbm, ⟨62, _⟩ => ⟨S65536x6, .i32⟩
  | .hbm, ⟨63, _⟩ => ⟨S65536x6, .i32⟩
  | .hbm, ⟨64, _⟩ => ⟨S65536x6x1, .i32⟩
  | .hbm, ⟨65, _⟩ => ⟨S65536x6x300, .bf16⟩
  | .hbm, ⟨66, _⟩ => ⟨S65536x6x300, .f32⟩
  | .hbm, ⟨67, _⟩ => ⟨S_, .f32⟩
  | .hbm, ⟨68, _⟩ => ⟨S65536x300, .f32⟩
  | .hbm, ⟨69, _⟩ => ⟨S65536x300, .bf16⟩
  | .hbm, ⟨70, _⟩ => ⟨S_, .i32⟩
  | .hbm, ⟨71, _⟩ => ⟨S131072, .i32⟩
  | .hbm, ⟨72, _⟩ => ⟨S131072, .i1⟩
  | .hbm, ⟨73, _⟩ => ⟨S_, .i32⟩
  | .hbm, ⟨74, _⟩ => ⟨S131072, .i32⟩
  | .hbm, ⟨75, _⟩ => ⟨S131072, .i32⟩
  | .hbm, ⟨76, _⟩ => ⟨S131072, .i32⟩
  | .hbm, ⟨77, _⟩ => ⟨S131072x1, .i32⟩
  | .hbm, ⟨78, _⟩ => ⟨S131072x300, .bf16⟩
  | .hbm, ⟨79, _⟩ => ⟨S_, .i32⟩
  | .hbm, ⟨80, _⟩ => ⟨S131072, .i32⟩
  | .hbm, ⟨81, _⟩ => ⟨S131072, .i1⟩
  | .hbm, ⟨82, _⟩ => ⟨S_, .i32⟩
  | .hbm, ⟨83, _⟩ => ⟨S131072, .i32⟩
  | .hbm, ⟨84, _⟩ => ⟨S131072, .i32⟩
  | .hbm, ⟨85, _⟩ => ⟨S131072, .i32⟩
  | .hbm, ⟨86, _⟩ => ⟨S131072x1, .i32⟩
  | .hbm, ⟨87, _⟩ => ⟨S131072x300, .bf16⟩
  | .hbm, ⟨88, _⟩ => ⟨S131072x300, .f32⟩
  | .hbm, ⟨89, _⟩ => ⟨S131072x300, .f32⟩
  | .hbm, ⟨90, _⟩ => ⟨S131072x300, .f32⟩
  | .hbm, ⟨91, _⟩ => ⟨S131072x300, .bf16⟩
  | .hbm, ⟨92, _⟩ => ⟨S131072x300, .bf16⟩
  | .hbm, ⟨93, _⟩ => ⟨S_, .i32⟩
  | .hbm, ⟨94, _⟩ => ⟨S65536x6, .i32⟩
  | .hbm, ⟨95, _⟩ => ⟨S65536x6, .i1⟩
  | .hbm, ⟨96, _⟩ => ⟨S_, .i32⟩
  | .hbm, ⟨97, _⟩ => ⟨S65536x6, .i32⟩
  | .hbm, ⟨98, _⟩ => ⟨S65536x6, .i32⟩
  | .hbm, ⟨99, _⟩ => ⟨S65536x6, .i32⟩
  | .hbm, ⟨100, _⟩ => ⟨S65536x6x1, .i32⟩
  | .hbm, ⟨101, _⟩ => ⟨S65536x6x300, .bf16⟩
  | .hbm, ⟨102, _⟩ => ⟨S65536x6x300, .f32⟩
  | .hbm, ⟨103, _⟩ => ⟨S_, .f32⟩
  | .hbm, ⟨104, _⟩ => ⟨S65536x300, .f32⟩
  | .hbm, ⟨105, _⟩ => ⟨S65536x300, .bf16⟩
  | .hbm, ⟨106, _⟩ => ⟨S1x300, .f32⟩
  | .hbm, ⟨107, _⟩ => ⟨S65536x300, .f32⟩
  | .hbm, ⟨108, _⟩ => ⟨S_, .f32⟩
  | .hbm, ⟨109, _⟩ => ⟨S2048x300, .f32⟩
  | .hbm, ⟨110, _⟩ => ⟨S65536x1, .i32⟩
  | .hbm, ⟨111, _⟩ => ⟨S2048x300, .f32⟩
  | .hbm, ⟨112, _⟩ => ⟨S_, .f32⟩
  | .hbm, ⟨113, _⟩ => ⟨S65536, .f32⟩
  | .hbm, ⟨114, _⟩ => ⟨S_, .f32⟩
  | .hbm, ⟨115, _⟩ => ⟨S2048, .f32⟩
  | .hbm, ⟨116, _⟩ => ⟨S65536x1, .i32⟩
  | .hbm, ⟨117, _⟩ => ⟨S2048, .f32⟩
  | .hbm, ⟨118, _⟩ => ⟨S_, .f32⟩
  | .hbm, ⟨119, _⟩ => ⟨S2048, .f32⟩
  | .hbm, ⟨120, _⟩ => ⟨S2048, .f32⟩
  | .hbm, ⟨121, _⟩ => ⟨S2048x1, .f32⟩
  | .hbm, ⟨122, _⟩ => ⟨S2048x300, .f32⟩
  | .hbm, ⟨123, _⟩ => ⟨S2048x300, .f32⟩
  | .local _ .vmem, ⟨0, _⟩ => ⟨S2048x147, .f32⟩
  | .local _ .vmem, ⟨1, _⟩ => ⟨S2048x147, .f32⟩
  | .local _ .vmem, ⟨2, _⟩ => ⟨S147x300, .bf16⟩
  | .local _ .vmem, ⟨3, _⟩ => ⟨S2048x300, .bf16⟩
  | .local _ .vmem, ⟨4, _⟩ => ⟨S2048x300, .bf16⟩
  | .local _ .vmem, ⟨5, _⟩ => ⟨S2048x300, .bf16⟩
  | .local _ .vmem, ⟨6, _⟩ => ⟨S2048x300, .bf16⟩
  | .local _ .vmem, ⟨7, _⟩ => ⟨S2048x300, .bf16⟩
  | .local _ .vmem, ⟨8, _⟩ => ⟨S2048x300, .bf16⟩
  | .local _ .vmem, ⟨9, _⟩ => ⟨S2048x300, .bf16⟩
  | .local _ .vmem, ⟨10, _⟩ => ⟨S2048x300, .bf16⟩
  | .local _ .vmem, ⟨11, _⟩ => ⟨S300x300, .bf16⟩
  | .local _ .vmem, ⟨12, _⟩ => ⟨S2048x300, .bf16⟩
  | .local _ .vmem, ⟨13, _⟩ => ⟨S2048x300, .bf16⟩
  | .local _ .vmem, ⟨14, _⟩ => ⟨S2048x300, .bf16⟩
  | .local _ .vmem, ⟨15, _⟩ => ⟨S2048x300, .bf16⟩
  | .local _ .vmem, ⟨16, _⟩ => ⟨S2048x300, .bf16⟩
  | .local _ .vmem, ⟨17, _⟩ => ⟨S2048x300, .bf16⟩
  | .local _ .vmem, ⟨18, _⟩ => ⟨S300x300, .bf16⟩
  | .local _ .vmem, ⟨19, _⟩ => ⟨S2048x300, .bf16⟩
  | .local _ .vmem, ⟨20, _⟩ => ⟨S2048x300, .bf16⟩
  | .local _ .vmem, ⟨21, _⟩ => ⟨S2048x133, .f32⟩
  | .local _ .vmem, ⟨22, _⟩ => ⟨S2048x133, .f32⟩
  | .local _ .vmem, ⟨23, _⟩ => ⟨S2048x300, .bf16⟩
  | .local _ .vmem, ⟨24, _⟩ => ⟨S2048x300, .bf16⟩
  | .local _ .vmem, ⟨25, _⟩ => ⟨S133x300, .bf16⟩
  | .local _ .vmem, ⟨26, _⟩ => ⟨S300x300, .bf16⟩
  | .local _ .vmem, ⟨27, _⟩ => ⟨S1x300, .f32⟩
  | .local _ .vmem, ⟨28, _⟩ => ⟨S2048x300, .f32⟩
  | .local _ .vmem, ⟨29, _⟩ => ⟨S2048x300, .f32⟩
  | _, _ => ⟨S65536x133, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9_0 : Ref sig .tc := ⟨.hbm, 19, rfl⟩
abbrev main_v9_1 : Ref sig .tc := ⟨.hbm, 20, rfl⟩
abbrev main_c : Ref sig .tc := ⟨.hbm, 21, rfl⟩
abbrev main_v10 : Ref sig .tc := ⟨.hbm, 22, rfl⟩
abbrev main_v11 : Ref sig .tc := ⟨.hbm, 23, rfl⟩
abbrev main_c_0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst : Ref sig .tc := ⟨.hbm, 31, rfl⟩
abbrev main_v18 : Ref sig .tc := ⟨.hbm, 32, rfl⟩
abbrev main_v19 : Ref sig .tc := ⟨.hbm, 33, rfl⟩
abbrev main_c_1 : Ref sig .tc := ⟨.hbm, 34, rfl⟩
abbrev main_v20 : Ref sig .tc := ⟨.hbm, 35, rfl⟩
abbrev main_v21 : Ref sig .tc := ⟨.hbm, 36, rfl⟩
abbrev main_c_2 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_3 : Ref sig .tc := ⟨.hbm, 43, rfl⟩
abbrev main_v27 : Ref sig .tc := ⟨.hbm, 44, rfl⟩
abbrev main_v28 : Ref sig .tc := ⟨.hbm, 45, rfl⟩
abbrev main_c_4 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_c_5 : Ref sig .tc := ⟨.hbm, 57, rfl⟩
abbrev main_v39 : Ref sig .tc := ⟨.hbm, 58, rfl⟩
abbrev main_v40 : Ref sig .tc := ⟨.hbm, 59, rfl⟩
abbrev main_c_6 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_7 : Ref sig .tc := ⟨.hbm, 67, rfl⟩
abbrev main_v47 : Ref sig .tc := ⟨.hbm, 68, rfl⟩
abbrev main_v48 : Ref sig .tc := ⟨.hbm, 69, rfl⟩
abbrev main_c_8 : Ref sig .tc := ⟨.hbm, 70, rfl⟩
abbrev main_v49 : Ref sig .tc := ⟨.hbm, 71, rfl⟩
abbrev main_v50 : Ref sig .tc := ⟨.hbm, 72, rfl⟩
abbrev main_c_9 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_c_10 : Ref sig .tc := ⟨.hbm, 79, rfl⟩
abbrev main_v56 : Ref sig .tc := ⟨.hbm, 80, rfl⟩
abbrev main_v57 : Ref sig .tc := ⟨.hbm, 81, rfl⟩
abbrev main_c_11 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_c_12 : Ref sig .tc := ⟨.hbm, 93, rfl⟩
abbrev main_v68 : Ref sig .tc := ⟨.hbm, 94, rfl⟩
abbrev main_v69 : Ref sig .tc := ⟨.hbm, 95, rfl⟩
abbrev main_c_13 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_14 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_cst_15 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_cst_16 : Ref sig .tc := ⟨.hbm, 112, rfl⟩
abbrev main_v83 : Ref sig .tc := ⟨.hbm, 113, rfl⟩
abbrev main_cst_17 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_cst_18 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg5_0 : Ref sig .tc := ⟨.vmem, 28, rfl⟩
abbrev cc3_stg5_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem4_0 : DmaSem sig := 27
abbrev cc3_sem5_0 : DmaSem sig := 28
abbrev cc3_sem5_1 : DmaSem sig := 29

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x147 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S147x300 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x300 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x300 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x300 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x300 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S300x300 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2048x300 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x300 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048x300 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S300x300 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2048x300 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2048x133 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2048x300 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S133x300 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S300x300 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x300 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2048x300 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  transposes_S300x147_S147x300_1_0 : S300x147.Transposes [1, 0] S147x300
  bitsLt_bf16_f32 : FTy.bits .bf16 < FTy.bits .f32
  transposes_S300x300_S300x300_1_0 : S300x300.Transposes [1, 0] S300x300
  transposes_S300x433_S433x300_1_0 : S300x433.Transposes [1, 0] S433x300
  slices_S433x300_S133x300_0_0 : S433x300.Slices ![0, 0] S133x300
  slices_S433x300_S300x300_133_0 : S433x300.Slices ![133, 0] S300x300
  inb_S2048x147_S2048x147_0_0 : ∀ a, (![0, 0] : Fin 2 → Nat) a + S2048x147.size a ≤ S2048x147.size a
  h_S2048x147 : 0 < S2048x147.numel
  inb_S147x300_S147x300_0_0 : ∀ a, (![0, 0] : Fin 2 → Nat) a + S147x300.size a ≤ S147x300.size a
  h_S147x300 : 0 < S147x300.numel
  shapeCasts_S147x300_S147x300 : S147x300.ShapeCasts S147x300
  inb_S2048x300_S2048x300_0_0 : ∀ a, (![0, 0] : Fin 2 → Nat) a + S2048x300.size a ≤ S2048x300.size a
  h_S2048x300 : 0 < S2048x300.numel
  packedbf16_S2048x300_S2048x300_0_0 : (Rect.unit (s := S2048x300) ![0, 0] S2048x300.size inb_S2048x300_S2048x300_0_0).PackedRows (EltTy.packing .bf16)
  bcast_S_S65536x6 : S_.BroadcastsInDim S65536x6 (![] : Fin 0 → Fin S65536x6.rank)
  bcast_S65536x6_S65536x6x1_0_1 : S65536x6.BroadcastsInDim S65536x6x1 (![0, 1] : Fin 2 → Fin S65536x6x1.rank)
  reducesTo_S65536x6x300_S65536x300_d1 : S65536x6x300.ReducesTo [1] S65536x300
  h_S_ : 0 < S_.numel
  bcast_S_S131072 : S_.BroadcastsInDim S131072 (![] : Fin 0 → Fin S131072.rank)
  bcast_S131072_S131072x1_0 : S131072.BroadcastsInDim S131072x1 (![0] : Fin 1 → Fin S131072x1.rank)
  shapeCasts_S2048x300_S2048x300 : S2048x300.ShapeCasts S2048x300
  inb_S300x300_S300x300_0_0 : ∀ a, (![0, 0] : Fin 2 → Nat) a + S300x300.size a ≤ S300x300.size a
  h_S300x300 : 0 < S300x300.numel
  shapeCasts_S300x300_S300x300 : S300x300.ShapeCasts S300x300
  shapeCasts_S300_S1x300 : S300.ShapeCasts S1x300
  inb_S2048x133_S2048x133_0_0 : ∀ a, (![0, 0] : Fin 2 → Nat) a + S2048x133.size a ≤ S2048x133.size a
  h_S2048x133 : 0 < S2048x133.numel
  inb_S133x300_S133x300_0_0 : ∀ a, (![0, 0] : Fin 2 → Nat) a + S133x300.size a ≤ S133x300.size a
  h_S133x300 : 0 < S133x300.numel
  shapeCasts_S133x300_S133x300 : S133x300.ShapeCasts S133x300
  inb_S1x300_S1x300_0_0 : ∀ a, (![0, 0] : Fin 2 → Nat) a + S1x300.size a ≤ S1x300.size a
  h_S1x300 : 0 < S1x300.numel
  shapeCasts_S1x300_S1x300 : S1x300.ShapeCasts S1x300
  broadcasts_S1x300_S2048x300 : S1x300.Broadcasts S2048x300
  bcast_S_S2048x300 : S_.BroadcastsInDim S2048x300 (![] : Fin 0 → Fin S2048x300.rank)
  bcast_S65536_S65536x1_0 : S65536.BroadcastsInDim S65536x1 (![0] : Fin 1 → Fin S65536x1.rank)
  bcast_S_S65536 : S_.BroadcastsInDim S65536 (![] : Fin 0 → Fin S65536.rank)
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x300_0_1 : S2048x1.BroadcastsInDim S2048x300 (![0, 1] : Fin 2 → Fin S2048x300.rank)
  dot_S2048x147_S147x300_S2048x300_1_0_0_1_n_n_wf : DotDims.WF S2048x147 S147x300 S2048x300 [1] [0] [0] [1] [] []
  gather_S131072x300_S65536x6x1_S65536x6x300_2_0_n_n_0_2_1300_wf : GatherDims.WF S131072x300 S65536x6x1 S65536x6x300 [2] [0] [] [0] [] 2 ![1, 300]
  gather_S131072x300_S131072x1_S131072x300_1_0_n_n_0_1_1300_wf : GatherDims.WF S131072x300 S131072x1 S131072x300 [1] [0] [] [0] [] 1 ![1, 300]
  gather_S65536x300_S131072x1_S131072x300_1_0_n_n_0_1_1300_wf : GatherDims.WF S65536x300 S131072x1 S131072x300 [1] [0] [] [0] [] 1 ![1, 300]
  dot_S2048x300_S300x300_S2048x300_1_0_0_1_n_n_wf : DotDims.WF S2048x300 S300x300 S2048x300 [1] [0] [0] [1] [] []
  dot_S2048x133_S133x300_S2048x300_1_0_0_1_n_n_wf : DotDims.WF S2048x133 S133x300 S2048x300 [1] [0] [0] [1] [] []
  scatter_S2048x300_S65536x1_S65536x300_1_0_0_1_wf : ScatterDims.WF S2048x300 S65536x1 S65536x300 [1] [0] [0] 1
  scatter_S2048_S65536x1_S65536_n_0_0_1_wf : ScatterDims.WF S2048 S65536x1 S65536 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x147.size a ≤ S131072x147.size a
  hwx0_0 : ∀ i : grid0.Coords, EltTy.bits .f32 = 32 ∨ (Rect.block (s := S131072x147) S2048x147.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S147x300.size a ≤ S147x300.size a
  hwx0_1 : ∀ i : grid0.Coords, EltTy.bits .bf16 = 32 ∨ (Rect.block (s := S147x300) S147x300.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x300.size a ≤ S131072x300.size a
  hwx0_2 : ∀ i : grid0.Coords, EltTy.bits .bf16 = 32 ∨ (Rect.block (s := S131072x300) S2048x300.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x300.size a ≤ S131072x300.size a
  hwx0_3 : ∀ i : grid0.Coords, EltTy.bits .bf16 = 32 ∨ (Rect.block (s := S131072x300) S2048x300.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x300.size a ≤ S131072x300.size a
  hwx1_0 : ∀ i : grid1.Coords, EltTy.bits .bf16 = 32 ∨ (Rect.block (s := S131072x300) S2048x300.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x300.size a ≤ S131072x300.size a
  hwx1_1 : ∀ i : grid1.Coords, EltTy.bits .bf16 = 32 ∨ (Rect.block (s := S131072x300) S2048x300.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S300x300.size a ≤ S300x300.size a
  hwx1_2 : ∀ i : grid1.Coords, EltTy.bits .bf16 = 32 ∨ (Rect.block (s := S300x300) S300x300.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x300.size a ≤ S131072x300.size a
  hwx1_3 : ∀ i : grid1.Coords, EltTy.bits .bf16 = 32 ∨ (Rect.block (s := S131072x300) S2048x300.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x300.size a ≤ S131072x300.size a
  hwx2_0 : ∀ i : grid2.Coords, EltTy.bits .bf16 = 32 ∨ (Rect.block (s := S131072x300) S2048x300.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x300.size a ≤ S131072x300.size a
  hwx2_1 : ∀ i : grid2.Coords, EltTy.bits .bf16 = 32 ∨ (Rect.block (s := S131072x300) S2048x300.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S300x300.size a ≤ S300x300.size a
  hwx2_2 : ∀ i : grid2.Coords, EltTy.bits .bf16 = 32 ∨ (Rect.block (s := S300x300) S300x300.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x300.size a ≤ S131072x300.size a
  hwx2_3 : ∀ i : grid2.Coords, EltTy.bits .bf16 = 32 ∨ (Rect.block (s := S131072x300) S2048x300.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x133.size a ≤ S65536x133.size a
  hwx3_0 : ∀ i : grid3.Coords, EltTy.bits .f32 = 32 ∨ (Rect.block (s := S65536x133) S2048x133.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x300.size a ≤ S65536x300.size a
  hwx3_1 : ∀ i : grid3.Coords, EltTy.bits .bf16 = 32 ∨ (Rect.block (s := S65536x300) S2048x300.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S133x300.size a ≤ S133x300.size a
  hwx3_2 : ∀ i : grid3.Coords, EltTy.bits .bf16 = 32 ∨ (Rect.block (s := S133x300) S133x300.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S300x300.size a ≤ S300x300.size a
  hwx3_3 : ∀ i : grid3.Coords, EltTy.bits .bf16 = 32 ∨ (Rect.block (s := S300x300) S300x300.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x300.size a ≤ S1x300.size a
  hwx3_4 : ∀ i : grid3.Coords, EltTy.bits .f32 = 32 ∨ (Rect.block (s := S1x300) S1x300.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2048x300.size a ≤ S65536x300.size a
  hwx3_5 : ∀ i : grid3.Coords, EltTy.bits .f32 = 32 ∨ (Rect.block (s := S65536x300) S2048x300.size (cc3_transform_5 i) (hinb3_5 i)).WholeWords (EltTy.packing .f32)

variable [Facts₀]

def dot_S2048x147_S147x300_S2048x300_1_0_0_1_n_n : DotDims S2048x147 S147x300 S2048x300 where
  lhsContracting := [1]
  rhsContracting := [0]
  lhsNonContracting := [0]
  rhsNonContracting := [1]
  lhsBatch := []
  rhsBatch := []
  wf := dot_S2048x147_S147x300_S2048x300_1_0_0_1_n_n_wf
def gather_S131072x300_S65536x6x1_S65536x6x300_2_0_n_n_0_2_1300 : GatherDims S131072x300 S65536x6x1 S65536x6x300 where
  offsetDims := [2]
  collapsedSliceDims := [0]
  operandBatchingDims := []
  startIndicesBatchingDims := []
  startIndexMap := [0]
  indexVectorDim := 2
  sliceSizes := ![1, 300]
  wf := gather_S131072x300_S65536x6x1_S65536x6x300_2_0_n_n_0_2_1300_wf
def gather_S131072x300_S131072x1_S131072x300_1_0_n_n_0_1_1300 : GatherDims S131072x300 S131072x1 S131072x300 where
  offsetDims := [1]
  collapsedSliceDims := [0]
  operandBatchingDims := []
  startIndicesBatchingDims := []
  startIndexMap := [0]
  indexVectorDim := 1
  sliceSizes := ![1, 300]
  wf := gather_S131072x300_S131072x1_S131072x300_1_0_n_n_0_1_1300_wf
def gather_S65536x300_S131072x1_S131072x300_1_0_n_n_0_1_1300 : GatherDims S65536x300 S131072x1 S131072x300 where
  offsetDims := [1]
  collapsedSliceDims := [0]
  operandBatchingDims := []
  startIndicesBatchingDims := []
  startIndexMap := [0]
  indexVectorDim := 1
  sliceSizes := ![1, 300]
  wf := gather_S65536x300_S131072x1_S131072x300_1_0_n_n_0_1_1300_wf
def dot_S2048x300_S300x300_S2048x300_1_0_0_1_n_n : DotDims S2048x300 S300x300 S2048x300 where
  lhsContracting := [1]
  rhsContracting := [0]
  lhsNonContracting := [0]
  rhsNonContracting := [1]
  lhsBatch := []
  rhsBatch := []
  wf := dot_S2048x300_S300x300_S2048x300_1_0_0_1_n_n_wf
def dot_S2048x133_S133x300_S2048x300_1_0_0_1_n_n : DotDims S2048x133 S133x300 S2048x300 where
  lhsContracting := [1]
  rhsContracting := [0]
  lhsNonContracting := [0]
  rhsNonContracting := [1]
  lhsBatch := []
  rhsBatch := []
  wf := dot_S2048x133_S133x300_S2048x300_1_0_0_1_n_n_wf
def scatter_S2048x300_S65536x1_S65536x300_1_0_0_1 : ScatterDims S2048x300 S65536x1 S65536x300 where
  updateWindowDims := [1]
  insertedWindowDims := [0]
  scatterDimsToOperandDims := [0]
  indexVectorDim := 1
  wf := scatter_S2048x300_S65536x1_S65536x300_1_0_0_1_wf
def scatter_S2048_S65536x1_S65536_n_0_0_1 : ScatterDims S2048 S65536x1 S65536 where
  updateWindowDims := []
  insertedWindowDims := [0]
  scatterDimsToOperandDims := [0]
  indexVectorDim := 1
  wf := scatter_S2048_S65536x1_S65536_n_0_0_1_wf

abbrev win0_0 : Pipeline.Window sig grid0 :=
  Pipeline.Window.ofSpec (Memref.whole main_arg1) S2048x147.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S147x300.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9_0) S2048x300.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9_1) S2048x300.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v9_0) S2048x300.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S2048x300.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S300x300.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v38) S2048x300.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v9_0) S2048x300.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v66) S2048x300.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v3) S300x300.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v67) S2048x300.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_arg0) S2048x133.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v77) S2048x300.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v6) S133x300.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v8) S300x300.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v78) S1x300.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v79) S2048x300.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S65536x133 : Shape := ⟨2, ![65536, 133]⟩
abbrev S131072x147 : Shape := ⟨2, ![131072, 147]⟩
abbrev S65536x6 : Shape := ⟨2, ![65536, 6]⟩
abbrev S131072 : Shape := ⟨1, ![131072]⟩
abbrev S65536 : Shape := ⟨1, ![65536]⟩
abbrev S300x147 : Shape := ⟨2, ![300, 147]⟩
abbrev S300x300 : Shape := ⟨2, ![300, 300]⟩
abbrev S300x433 : Shape := ⟨2, ![300, 433]⟩
abbrev S300 : Shape := ⟨1, ![300]⟩
abbrev S147x300 : Shape := ⟨2, ![147, 300]⟩
abbrev S131072x300 : Shape := ⟨2, ![131072, 300]⟩
abbrev S_ : Shape := ⟨0, ![]⟩
abbrev S65536x6x1 : Shape := ⟨3, ![65536, 6, 1]⟩
abbrev S65536x6x300 : Shape := ⟨3, ![65536, 6, 300]⟩
abbrev S65536x300 : Shape := ⟨2, ![65536, 300]⟩
abbrev S131072x1 : Shape := ⟨2, ![131072, 1]⟩
abbrev S65536x433 : Shape := ⟨2, ![65536, 433]⟩
abbrev S433x300 : Shape := ⟨2, ![433, 300]⟩
abbrev S1x300 : Shape := ⟨2, ![1, 300]⟩
abbrev S2048x300 : Shape := ⟨2, ![2048, 300]⟩
abbrev S65536x1 : Shape := ⟨2, ![65536, 1]⟩
abbrev S2048 : Shape := ⟨1, ![2048]⟩
abbrev S2048x1 : Shape := ⟨2, ![2048, 1]⟩

abbrev nBuf : Space → Nat
  | .hbm => 123
  | .vmem => 0
  | .smem => 0
  | _ => 0

abbrev bufTy : (tb : Table) → Fin (tcTables nBuf tb) → BufTy
  | .hbm, ⟨0, _⟩ => ⟨S65536x133, .f32⟩
  | .hbm, ⟨1, _⟩ => ⟨S131072x147, .f32⟩
  | .hbm, ⟨2, _⟩ => ⟨S65536x6, .i32⟩
  | .hbm, ⟨3, _⟩ => ⟨S131072, .i32⟩
  | .hbm, ⟨4, _⟩ => ⟨S131072, .i32⟩
  | .hbm, ⟨5, _⟩ => ⟨S65536, .i32⟩
  | .hbm, ⟨6, _⟩ => ⟨S300x147, .f32⟩
  | .hbm, ⟨7, _⟩ => ⟨S300x300, .f32⟩
  | .hbm, ⟨8, _⟩ => ⟨S300x433, .f32⟩
  | .hbm, ⟨9, _⟩ => ⟨S300, .f32⟩
  | .hbm, ⟨10, _⟩ => ⟨S147x300, .f32⟩
  | .hbm, ⟨11, _⟩ => ⟨S131072x300, .f32⟩
  | .hbm, ⟨12, _⟩ => ⟨S_, .f32⟩
  | .hbm, ⟨13, _⟩ => ⟨S131072x300, .f32⟩
  | .hbm, ⟨14, _⟩ => ⟨S131072x300, .f32⟩
  | .hbm, ⟨15, _⟩ => ⟨S_, .i32⟩
  | .hbm, ⟨16, _⟩ => ⟨S65536x6, .i32⟩
  | .hbm, ⟨17, _⟩ => ⟨S65536x6, .i1⟩
  | .hbm, ⟨18, _⟩ => ⟨S_, .i32⟩
  | .hbm, ⟨19, _⟩ => ⟨S65536x6, .i32⟩
  | .hbm, ⟨20, _⟩ => ⟨S65536x6, .i32⟩
  | .hbm, ⟨21, _⟩ => ⟨S65536x6, .i32⟩
  | .hbm, ⟨22, _⟩ => ⟨S65536x6x1, .i32⟩
  | .hbm, ⟨23, _⟩ => ⟨S65536x6x300, .f32⟩
  | .hbm, ⟨24, _⟩ => ⟨S_, .f32⟩
  | .hbm, ⟨25, _⟩ => ⟨S65536x300, .f32⟩
  | .hbm, ⟨26, _⟩ => ⟨S_, .i32⟩
  | .hbm, ⟨27, _⟩ => ⟨S131072, .i32⟩
  | .hbm, ⟨28, _⟩ => ⟨S131072, .i1⟩
  | .hbm, ⟨29, _⟩ => ⟨S_, .i32⟩
  | .hbm, ⟨30, _⟩ => ⟨S131072, .i32⟩
  | .hbm, ⟨31, _⟩ => ⟨S131072, .i32⟩
  | .hbm, ⟨32, _⟩ => ⟨S131072, .i32⟩
  | .hbm, ⟨33, _⟩ => ⟨S131072x1, .i32⟩
  | .hbm, ⟨34, _⟩ => ⟨S131072x300, .f32⟩
  | .hbm, ⟨35, _⟩ => ⟨S_, .i32⟩
  | .hbm, ⟨36, _⟩ => ⟨S131072, .i32⟩
  | .hbm, ⟨37, _⟩ => ⟨S131072, .i1⟩
  | .hbm, ⟨38, _⟩ => ⟨S_, .i32⟩
  | .hbm, ⟨39, _⟩ => ⟨S131072, .i32⟩
  | .hbm, ⟨40, _⟩ => ⟨S131072, .i32⟩
  | .hbm, ⟨41, _⟩ => ⟨S131072, .i32⟩
  | .hbm, ⟨42, _⟩ => ⟨S131072x1, .i32⟩
  | .hbm, ⟨43, _⟩ => ⟨S131072x300, .f32⟩
  | .hbm, ⟨44, _⟩ => ⟨S131072x300, .f32⟩
  | .hbm, ⟨45, _⟩ => ⟨S300x300, .f32⟩
  | .hbm, ⟨46, _⟩ => ⟨S131072x300, .f32⟩
  | .hbm, ⟨47, _⟩ => ⟨S131072x300, .f32⟩
  | .hbm, ⟨48, _⟩ => ⟨S_, .f32⟩
  | .hbm, ⟨49, _⟩ => ⟨S131072x300, .f32⟩
  | .hbm, ⟨50, _⟩ => ⟨S131072x300, .f32⟩
  | .hbm, ⟨51, _⟩ => ⟨S_, .i32⟩
  | .hbm, ⟨52, _⟩ => ⟨S65536x6, .i32⟩
  | .hbm, ⟨53, _⟩ => ⟨S65536x6, .i1⟩
  | .hbm, ⟨54, _⟩ => ⟨S_, .i32⟩
  | .hbm, ⟨55, _⟩ => ⟨S65536x6, .i32⟩
  | .hbm, ⟨56, _⟩ => ⟨S65536x6, .i32⟩
  | .hbm, ⟨57, _⟩ => ⟨S65536x6, .i32⟩
  | .hbm, ⟨58, _⟩ => ⟨S65536x6x1, .i32⟩
  | .hbm, ⟨59, _⟩ => ⟨S65536x6x300, .f32⟩
  | .hbm, ⟨60, _⟩ => ⟨S_, .f32⟩
  | .hbm, ⟨61, _⟩ => ⟨S65536x300, .f32⟩
  | .hbm, ⟨62, _⟩ => ⟨S_, .i32⟩
  | .hbm, ⟨63, _⟩ => ⟨S131072, .i32⟩
  | .hbm, ⟨64, _⟩ => ⟨S131072, .i1⟩
  | .hbm, ⟨65, _⟩ => ⟨S_, .i32⟩
  | .hbm, ⟨66, _⟩ => ⟨S131072, .i32⟩
  | .hbm, ⟨67, _⟩ => ⟨S131072, .i32⟩
  | .hbm, ⟨68, _⟩ => ⟨S131072, .i32⟩
  | .hbm, ⟨69, _⟩ => ⟨S131072x1, .i32⟩
  | .hbm, ⟨70, _⟩ => ⟨S131072x300, .f32⟩
  | .hbm, ⟨71, _⟩ => ⟨S_, .i32⟩
  | .hbm, ⟨72, _⟩ => ⟨S131072, .i32⟩
  | .hbm, ⟨73, _⟩ => ⟨S131072, .i1⟩
  | .hbm, ⟨74, _⟩ => ⟨S_, .i32⟩
  | .hbm, ⟨75, _⟩ => ⟨S131072, .i32⟩
  | .hbm, ⟨76, _⟩ => ⟨S131072, .i32⟩
  | .hbm, ⟨77, _⟩ => ⟨S131072, .i32⟩
  | .hbm, ⟨78, _⟩ => ⟨S131072x1, .i32⟩
  | .hbm, ⟨79, _⟩ => ⟨S131072x300, .f32⟩
  | .hbm, ⟨80, _⟩ => ⟨S131072x300, .f32⟩
  | .hbm, ⟨81, _⟩ => ⟨S300x300, .f32⟩
  | .hbm, ⟨82, _⟩ => ⟨S131072x300, .f32⟩
  | .hbm, ⟨83, _⟩ => ⟨S131072x300, .f32⟩
  | .hbm, ⟨84, _⟩ => ⟨S_, .f32⟩
  | .hbm, ⟨85, _⟩ => ⟨S131072x300, .f32⟩
  | .hbm, ⟨86, _⟩ => ⟨S131072x300, .f32⟩
  | .hbm, ⟨87, _⟩ => ⟨S_, .i32⟩
  | .hbm, ⟨88, _⟩ => ⟨S65536x6, .i32⟩
  | .hbm, ⟨89, _⟩ => ⟨S65536x6, .i1⟩
  | .hbm, ⟨90, _⟩ => ⟨S_, .i32⟩
  | .hbm, ⟨91, _⟩ => ⟨S65536x6, .i32⟩
  | .hbm, ⟨92, _⟩ => ⟨S65536x6, .i32⟩
  | .hbm, ⟨93, _⟩ => ⟨S65536x6, .i32⟩
  | .hbm, ⟨94, _⟩ => ⟨S65536x6x1, .i32⟩
  | .hbm, ⟨95, _⟩ => ⟨S65536x6x300, .f32⟩
  | .hbm, ⟨96, _⟩ => ⟨S_, .f32⟩
  | .hbm, ⟨97, _⟩ => ⟨S65536x300, .f32⟩
  | .hbm, ⟨98, _⟩ => ⟨S65536x433, .f32⟩
  | .hbm, ⟨99, _⟩ => ⟨S433x300, .f32⟩
  | .hbm, ⟨100, _⟩ => ⟨S65536x300, .f32⟩
  | .hbm, ⟨101, _⟩ => ⟨S1x300, .f32⟩
  | .hbm, ⟨102, _⟩ => ⟨S65536x300, .f32⟩
  | .hbm, ⟨103, _⟩ => ⟨S65536x300, .f32⟩
  | .hbm, ⟨104, _⟩ => ⟨S_, .f32⟩
  | .hbm, ⟨105, _⟩ => ⟨S65536x300, .f32⟩
  | .hbm, ⟨106, _⟩ => ⟨S65536x300, .f32⟩
  | .hbm, ⟨107, _⟩ => ⟨S_, .f32⟩
  | .hbm, ⟨108, _⟩ => ⟨S2048x300, .f32⟩
  | .hbm, ⟨109, _⟩ => ⟨S65536x1, .i32⟩
  | .hbm, ⟨110, _⟩ => ⟨S2048x300, .f32⟩
  | .hbm, ⟨111, _⟩ => ⟨S_, .f32⟩
  | .hbm, ⟨112, _⟩ => ⟨S65536, .f32⟩
  | .hbm, ⟨113, _⟩ => ⟨S_, .f32⟩
  | .hbm, ⟨114, _⟩ => ⟨S2048, .f32⟩
  | .hbm, ⟨115, _⟩ => ⟨S65536x1, .i32⟩
  | .hbm, ⟨116, _⟩ => ⟨S2048, .f32⟩
  | .hbm, ⟨117, _⟩ => ⟨S_, .f32⟩
  | .hbm, ⟨118, _⟩ => ⟨S2048, .f32⟩
  | .hbm, ⟨119, _⟩ => ⟨S2048, .f32⟩
  | .hbm, ⟨120, _⟩ => ⟨S2048x1, .f32⟩
  | .hbm, ⟨121, _⟩ => ⟨S2048x300, .f32⟩
  | .hbm, ⟨122, _⟩ => ⟨S2048x300, .f32⟩
  | _, _ => ⟨S65536x133, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_call0_cst : Ref sig .tc := ⟨.hbm, 12, rfl⟩
abbrev main_call0_v0 : Ref sig .tc := ⟨.hbm, 13, rfl⟩
abbrev main_v2 : Ref sig .tc := ⟨.hbm, 14, rfl⟩
abbrev main_c : Ref sig .tc := ⟨.hbm, 15, rfl⟩
abbrev main_v3 : Ref sig .tc := ⟨.hbm, 16, rfl⟩
abbrev main_v4 : Ref sig .tc := ⟨.hbm, 17, rfl⟩
abbrev main_c_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst : Ref sig .tc := ⟨.hbm, 24, rfl⟩
abbrev main_v10 : Ref sig .tc := ⟨.hbm, 25, rfl⟩
abbrev main_c_1 : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_c_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_call1_cst : Ref sig .tc := ⟨.hbm, 48, rfl⟩
abbrev main_call1_v0 : Ref sig .tc := ⟨.hbm, 49, rfl⟩
abbrev main_v29 : Ref sig .tc := ⟨.hbm, 50, rfl⟩
abbrev main_c_5 : Ref sig .tc := ⟨.hbm, 51, rfl⟩
abbrev main_v30 : Ref sig .tc := ⟨.hbm, 52, rfl⟩
abbrev main_v31 : Ref sig .tc := ⟨.hbm, 53, rfl⟩
abbrev main_c_6 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_7 : Ref sig .tc := ⟨.hbm, 60, rfl⟩
abbrev main_v37 : Ref sig .tc := ⟨.hbm, 61, rfl⟩
abbrev main_c_8 : Ref sig .tc := ⟨.hbm, 62, rfl⟩
abbrev main_v38 : Ref sig .tc := ⟨.hbm, 63, rfl⟩
abbrev main_v39 : Ref sig .tc := ⟨.hbm, 64, rfl⟩
abbrev main_c_9 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_c_10 : Ref sig .tc := ⟨.hbm, 71, rfl⟩
abbrev main_v45 : Ref sig .tc := ⟨.hbm, 72, rfl⟩
abbrev main_v46 : Ref sig .tc := ⟨.hbm, 73, rfl⟩
abbrev main_c_11 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_call2_cst : Ref sig .tc := ⟨.hbm, 84, rfl⟩
abbrev main_call2_v0 : Ref sig .tc := ⟨.hbm, 85, rfl⟩
abbrev main_v56 : Ref sig .tc := ⟨.hbm, 86, rfl⟩
abbrev main_c_12 : Ref sig .tc := ⟨.hbm, 87, rfl⟩
abbrev main_v57 : Ref sig .tc := ⟨.hbm, 88, rfl⟩
abbrev main_v58 : Ref sig .tc := ⟨.hbm, 89, rfl⟩
abbrev main_c_13 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_cst_14 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_call3_cst : Ref sig .tc := ⟨.hbm, 104, rfl⟩
abbrev main_call3_v0 : Ref sig .tc := ⟨.hbm, 105, rfl⟩
abbrev main_v71 : Ref sig .tc := ⟨.hbm, 106, rfl⟩
abbrev main_cst_15 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_cst_16 : Ref sig .tc := ⟨.hbm, 111, rfl⟩
abbrev main_v75 : Ref sig .tc := ⟨.hbm, 112, rfl⟩
abbrev main_cst_17 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_cst_18 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩

abbrev nD : Nat := 1
abbrev τ : Topo := Topo.v7x

variable {F : FTy → Type} [FloatOps F]

class Facts₀ : Prop where
  transposes_S300x147_S147x300_1_0 : S300x147.Transposes [1, 0] S147x300
  bcast_S_S131072x300 : S_.BroadcastsInDim S131072x300 (![] : Fin 0 → Fin S131072x300.rank)
  bcast_S_S65536x6 : S_.BroadcastsInDim S65536x6 (![] : Fin 0 → Fin S65536x6.rank)
  bcast_S65536x6_S65536x6x1_0_1 : S65536x6.BroadcastsInDim S65536x6x1 (![0, 1] : Fin 2 → Fin S65536x6x1.rank)
  reducesTo_S65536x6x300_S65536x300_d1 : S65536x6x300.ReducesTo [1] S65536x300
  h_S_ : 0 < S_.numel
  bcast_S_S131072 : S_.BroadcastsInDim S131072 (![] : Fin 0 → Fin S131072.rank)
  bcast_S131072_S131072x1_0 : S131072.BroadcastsInDim S131072x1 (![0] : Fin 1 → Fin S131072x1.rank)
  transposes_S300x300_S300x300_1_0 : S300x300.Transposes [1, 0] S300x300
  concatenates_S65536x133_S65536x300_S65536x433_d1 : Shape.Concatenates [S65536x133, S65536x300] S65536x433 1
  transposes_S300x433_S433x300_1_0 : S300x433.Transposes [1, 0] S433x300
  bcast_S300_S1x300_1 : S300.BroadcastsInDim S1x300 (![1] : Fin 1 → Fin S1x300.rank)
  bcast_S1x300_S65536x300_0_1 : S1x300.BroadcastsInDim S65536x300 (![0, 1] : Fin 2 → Fin S65536x300.rank)
  bcast_S_S65536x300 : S_.BroadcastsInDim S65536x300 (![] : Fin 0 → Fin S65536x300.rank)
  bcast_S_S2048x300 : S_.BroadcastsInDim S2048x300 (![] : Fin 0 → Fin S2048x300.rank)
  bcast_S65536_S65536x1_0 : S65536.BroadcastsInDim S65536x1 (![0] : Fin 1 → Fin S65536x1.rank)
  bcast_S_S65536 : S_.BroadcastsInDim S65536 (![] : Fin 0 → Fin S65536.rank)
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x300_0_1 : S2048x1.BroadcastsInDim S2048x300 (![0, 1] : Fin 2 → Fin S2048x300.rank)
  dot_S131072x147_S147x300_S131072x300_1_0_0_1_n_n_wf : DotDims.WF S131072x147 S147x300 S131072x300 [1] [0] [0] [1] [] []
  gather_S131072x300_S65536x6x1_S65536x6x300_2_0_n_n_0_2_1300_wf : GatherDims.WF S131072x300 S65536x6x1 S65536x6x300 [2] [0] [] [0] [] 2 ![1, 300]
  gather_S131072x300_S131072x1_S131072x300_1_0_n_n_0_1_1300_wf : GatherDims.WF S131072x300 S131072x1 S131072x300 [1] [0] [] [0] [] 1 ![1, 300]
  gather_S65536x300_S131072x1_S131072x300_1_0_n_n_0_1_1300_wf : GatherDims.WF S65536x300 S131072x1 S131072x300 [1] [0] [] [0] [] 1 ![1, 300]
  dot_S131072x300_S300x300_S131072x300_1_0_0_1_n_n_wf : DotDims.WF S131072x300 S300x300 S131072x300 [1] [0] [0] [1] [] []
  dot_S65536x433_S433x300_S65536x300_1_0_0_1_n_n_wf : DotDims.WF S65536x433 S433x300 S65536x300 [1] [0] [0] [1] [] []
  scatter_S2048x300_S65536x1_S65536x300_1_0_0_1_wf : ScatterDims.WF S2048x300 S65536x1 S65536x300 [1] [0] [0] 1
  scatter_S2048_S65536x1_S65536_n_0_0_1_wf : ScatterDims.WF S2048 S65536x1 S65536 [] [0] [0] 1

variable [Facts₀]

def dot_S131072x147_S147x300_S131072x300_1_0_0_1_n_n : DotDims S131072x147 S147x300 S131072x300 where
  lhsContracting := [1]
  rhsContracting := [0]
  lhsNonContracting := [0]
  rhsNonContracting := [1]
  lhsBatch := []
  rhsBatch := []
  wf := dot_S131072x147_S147x300_S131072x300_1_0_0_1_n_n_wf
def gather_S131072x300_S65536x6x1_S65536x6x300_2_0_n_n_0_2_1300 : GatherDims S131072x300 S65536x6x1 S65536x6x300 where
  offsetDims := [2]
  collapsedSliceDims := [0]
  operandBatchingDims := []
  startIndicesBatchingDims := []
  startIndexMap := [0]
  indexVectorDim := 2
  sliceSizes := ![1, 300]
  wf := gather_S131072x300_S65536x6x1_S65536x6x300_2_0_n_n_0_2_1300_wf
def gather_S131072x300_S131072x1_S131072x300_1_0_n_n_0_1_1300 : GatherDims S131072x300 S131072x1 S131072x300 where
  offsetDims := [1]
  collapsedSliceDims := [0]
  operandBatchingDims := []
  startIndicesBatchingDims := []
  startIndexMap := [0]
  indexVectorDim := 1
  sliceSizes := ![1, 300]
  wf := gather_S131072x300_S131072x1_S131072x300_1_0_n_n_0_1_1300_wf
def gather_S65536x300_S131072x1_S131072x300_1_0_n_n_0_1_1300 : GatherDims S65536x300 S131072x1 S131072x300 where
  offsetDims := [1]
  collapsedSliceDims := [0]
  operandBatchingDims := []
  startIndicesBatchingDims := []
  startIndexMap := [0]
  indexVectorDim := 1
  sliceSizes := ![1, 300]
  wf := gather_S65536x300_S131072x1_S131072x300_1_0_n_n_0_1_1300_wf
def dot_S131072x300_S300x300_S131072x300_1_0_0_1_n_n : DotDims S131072x300 S300x300 S131072x300 where
  lhsContracting := [1]
  rhsContracting := [0]
  lhsNonContracting := [0]
  rhsNonContracting := [1]
  lhsBatch := []
  rhsBatch := []
  wf := dot_S131072x300_S300x300_S131072x300_1_0_0_1_n_n_wf
def dot_S65536x433_S433x300_S65536x300_1_0_0_1_n_n : DotDims S65536x433 S433x300 S65536x300 where
  lhsContracting := [1]
  rhsContracting := [0]
  lhsNonContracting := [0]
  rhsNonContracting := [1]
  lhsBatch := []
  rhsBatch := []
  wf := dot_S65536x433_S433x300_S65536x300_1_0_0_1_n_n_wf
def scatter_S2048x300_S65536x1_S65536x300_1_0_0_1 : ScatterDims S2048x300 S65536x1 S65536x300 where
  updateWindowDims := [1]
  insertedWindowDims := [0]
  scatterDimsToOperandDims := [0]
  indexVectorDim := 1
  wf := scatter_S2048x300_S65536x1_S65536x300_1_0_0_1_wf
def scatter_S2048_S65536x1_S65536_n_0_0_1 : ScatterDims S2048 S65536x1 S65536 where
  updateWindowDims := []
  insertedWindowDims := [0]
  scatterDimsToOperandDims := [0]
  indexVectorDim := 1
  wf := scatter_S2048_S65536x1_S65536_n_0_0_1_wf

class Facts : Prop extends Facts₀ where

variable [Facts]
-- ==== Proof.RunAll.lean ====
/-
  The idealized kernel's run, with the final memory named.

  Every weakly fair execution of the kernel program terminates without a fault, and in the final state every buffer
  that is not scoped to a region holds what the fold of the program's segments leaves there: the host stretches
  applied in order to the launch memory, each region's arrays replaced by what its write-backs leave. The value of
  the program's result is read off this fold; that the arguments end as launched follows from it as well.
-/
import proofs.«160048_j18339510354321_2_alg».proof.Proof.Gen.KernelIdeal.Frame

set_option maxRecDepth 16384

noncomputable section

namespace Cert.KernelIdeal.RunAll

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: in every final state each unscoped buffer of each core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c => h c)

/-- The run with the result buffer and the arguments read off the final memory. -/
theorem run_result : θ_run defs (onTc (τ := τ) (main (F := F))) ⟨m, fun _ => 0, ρ⟩ (fun r => ∀ c : Dev nD,
      r.2.mem ((c.tc : Thread nD τ).loc main_v91) = W9 m ρ c (Proc.devRef .tc main_v91)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun s h c =>
      ⟨h c _ (mem_uc main_v91 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c)⟩)
    (run_all m ρ)

end Cert.KernelIdeal.RunAll

end
-- ==== Proof.LibPlainDot.lean ====
/-
  A plain matrix product's contraction sum, re-indexed by the contracted coordinate.

  For a dot of an [n, K] operand with a [K, M] operand into [n, M] that contracts the left operand's axis 1 with the
  right operand's axis 0 and has no batch axes, the sum over the contraction index of left(row i, k) * right(k, column i)
  is the sum over k : Fin K of L (i 0, k) * R (k, i 1): what both a kernel's matrix unit and a host dot_general
  compute at an output index over the extended reals.
-/
import Idealize.ShloMosaic.PureOps.Ideal.Laws
import Idealize.ShloMosaic.Lib.ValueIdx

namespace Cert.LibPlainDot

open Idealize.ShloMosaic Idealize.ShloMosaic.ValueIdx

variable {n K M : Nat}

/-- The dimension numbers of a plain product: contract axis 1 with axis 0, keep axis 0 and axis 1, no batch axes. -/
structure IsPlain (d : DotDims ⟨2, ![n, K]⟩ ⟨2, ![K, M]⟩ ⟨2, ![n, M]⟩) : Prop where
  lc : d.lhsContracting = [1]
  rc : d.rhsContracting = [0]
  ln : d.lhsNonContracting = [0]
  rn : d.rhsNonContracting = [1]
  lb : d.lhsBatch = []
  rb : d.rhsBatch = []

/-- The contraction sum of a plain product at output index `i` is the sum over the contracted coordinate. -/
theorem sum_contr {α : Type} [AddCommMonoid α] (d : DotDims ⟨2, ![n, K]⟩ ⟨2, ![K, M]⟩ ⟨2, ![n, M]⟩) (hd : IsPlain d)
    (f : (⟨2, ![n, K]⟩ : Shape).Idx → (⟨2, ![K, M]⟩ : Shape).Idx → α) (i : (⟨2, ![n, M]⟩ : Shape).Idx) :
    ∑ q : d.contr.Idx, f (d.lhsIdx i q) (d.rhsIdx i q) = ∑ k : Fin K, f (ix2 (i 0) k) (ix2 k (i 1)) := by
  obtain ⟨lc, rc, ln, rn, lb, rb, wf⟩ := d
  obtain ⟨h1, h2, h3, h4, h5, h6⟩ := hd
  simp only at h1 h2 h3 h4 h5 h6
  subst h1 h2 h3 h4 h5 h6
  let d : DotDims ⟨2, ![n, K]⟩ ⟨2, ![K, M]⟩ ⟨2, ![n, M]⟩ := ⟨[1], [0], [0], [1], [], [], wf⟩
  show ∑ q : d.contr.Idx, f (d.lhsIdx i q) (d.rhsIdx i q) = _
  rw [← Equiv.sum_comp (contrEquiv1 d K rfl rfl).symm]
  refine Finset.sum_congr rfl fun k _ => ?_
  have hk := contrEquiv1_symm_val d K rfl rfl k
  have el : d.lhsIdx i ((contrEquiv1 d K rfl rfl).symm k) = ix2 (i 0) k := funext fun a => Fin.ext (by
    match a with
    | ⟨0, _⟩ =>
      show (d.lhsIdx i _ 0).val = (i 0).val
      unfold DotDims.lhsIdx
      rw [dif_neg (show ¬(0 : Fin (⟨2, ![n, K]⟩ : Shape).rank) ∈ d.lhsBatch from List.not_mem_nil),
        dif_pos (show (0 : Fin (⟨2, ![n, K]⟩ : Shape).rank) ∈ d.lhsNonContracting from List.mem_singleton.mpr rfl)]
      rfl
    | ⟨1, _⟩ => exact (d.lhsIdx_val_of_single rfl i _).trans hk)
  have er : d.rhsIdx i ((contrEquiv1 d K rfl rfl).symm k) = ix2 k (i 1) := funext fun a => Fin.ext (by
    match a with
    | ⟨0, _⟩ => exact (d.rhsIdx_val_of_single rfl i _).trans hk
    | ⟨1, _⟩ =>
      show (d.rhsIdx i _ 1).val = (i 1).val
      unfold DotDims.rhsIdx
      rw [dif_neg (show ¬(1 : Fin (⟨2, ![K, M]⟩ : Shape).rank) ∈ d.rhsBatch from List.not_mem_nil),
        dif_pos (show (1 : Fin (⟨2, ![K, M]⟩ : Shape).rank) ∈ d.rhsNonContracting from List.mem_singleton.mpr rfl)]
      rfl)
  rw [el, er]
  try rfl

end Cert.LibPlainDot
-- ==== Proof.LibDotApply.lean ====
/-
  A plain matrix product read at an entry, over the extended reals.

  For an [n, K] operand and a [K, M] operand contracted over K with no batch axes, the kernel's matrix-unit product
  into a zero accumulator and the host's dot_general both read, at entry (p, c), the sum over k : Fin K of
  L (p, k) * R (k, c): there is no rounding and no order of accumulation left in either.
-/
import proofs.«160048_j18339510354321_2_alg».proof.Proof.LibPlainDot
import Idealize.ShloMosaic.PureOps.Ideal.Laws
import Idealize.ShloMosaic.Lib.ValueIdx

noncomputable section

namespace Cert.LibDotApply

open Idealize.ShloMosaic Idealize.ShloMosaic.ValueIdx Cert.LibPlainDot

variable {n K M : Nat} {φ₁ φ₂ : FTy}

/-- A kernel's matrix-unit product of plain dimension numbers into a zero accumulator, at entry (p, c). -/
theorem matmul_zero_apply (d : DotDims ⟨2, ![n, K]⟩ ⟨2, ![K, M]⟩ ⟨2, ![n, M]⟩) (hd : IsPlain d) (prec : Option ContractPrecision)
    (lhs : FVec Ideal ⟨2, ![n, K]⟩ φ₁) (rhs : FVec Ideal ⟨2, ![K, M]⟩ φ₂) (p : Fin n) (c : Fin M) :
    FloatOps.matmul d prec lhs rhs (constant ⟨2, ![n, M]⟩ .f32 0x00000000#32) (ix2 p c)
      = ∑ k : Fin K, lhs (ix2 p k) * rhs (ix2 k c) :=
  (Ideal.matmul_constant_zero_apply d prec lhs rhs (ix2 p c)).trans
    (sum_contr d hd (fun a b => lhs a * rhs b) (ix2 p c))

/-- The host's dot_general of plain dimension numbers, at entry (p, c). -/
theorem dotGeneral_apply (d : DotDims ⟨2, ![n, K]⟩ ⟨2, ![K, M]⟩ ⟨2, ![n, M]⟩) (hd : IsPlain d) (prec : Option ContractPrecision)
    (sched : HostSchedule) (lhs : FVec Ideal ⟨2, ![n, K]⟩ φ₁) (rhs : FVec Ideal ⟨2, ![K, M]⟩ φ₂) (p : Fin n) (c : Fin M) :
    FloatOps.dotGeneral d prec sched lhs rhs (ix2 p c) = ∑ k : Fin K, lhs (ix2 p k) * rhs (ix2 k c) :=
  (Ideal.dotGeneral_apply d prec sched lhs rhs (ix2 p c)).trans
    (sum_contr d hd (fun a b => lhs a * rhs b) (ix2 p c))

end Cert.LibDotApply

end
-- ==== Proof.Algebra.lean ====
/-
  The arithmetic shared by the kernel and the reference, over the extended reals.

  A dense layer is a matrix product read one entry at a time: entry (p, c) of X · W is the sum over k of
  X (p, k) * W (k, c). The rectifier clamps an entry below at zero. When the left operand is two matrices laid
  side by side along the contracted axis, the product is the sum of the two products with the matching row blocks
  of the right operand: the sum over the 433 contracted positions splits into the first 133 and the last 300.
  Only the laws of a commutative additive monoid are used, so nothing here asks the entries to be finite.
-/
import proofs.«160048_j18339510354321_2_alg».proof.Proof.LibDotApply
import Idealize.ShloMosaic.PureOps.Ideal.Laws
import Idealize.ShloMosaic.Lib.ValueIdx
import Idealize.ShloMosaic.Lib.Pipeline.Value

noncomputable section

namespace Cert.Mpn

open Idealize.ShloMosaic Idealize.ShloMosaic.ValueIdx Cert.LibPlainDot Cert.LibDotApply

variable {n K M : Nat}

/-- The matrix product of an [n, K] and a [K, M] array of extended reals, entry by entry. -/
def mm (X : (⟨2, ![n, K]⟩ : Shape).Idx → EReal) (W : (⟨2, ![K, M]⟩ : Shape).Idx → EReal) :
    (⟨2, ![n, M]⟩ : Shape).Idx → EReal :=
  fun i => ∑ k : Fin K, X (ix2 (i 0) k) * W (ix2 k (i 1))

/-- The rectifier: every entry clamped below at the float zero. -/
def relu0 {s : Shape} (x : s.Idx → EReal) : s.Idx → EReal := fun i => max (x i) (Ideal.ofBits .f32 0x00000000#32)

/-- The host's plain dot_general is the matrix product. -/
theorem dotGeneral_eq_mm {φ₁ φ₂ : FTy} (d : DotDims ⟨2, ![n, K]⟩ ⟨2, ![K, M]⟩ ⟨2, ![n, M]⟩) (hd : IsPlain d)
    (X : FVec Ideal ⟨2, ![n, K]⟩ φ₁) (W : FVec Ideal ⟨2, ![K, M]⟩ φ₂) :
    (Host.dotGeneral d none X W : FVec Ideal ⟨2, ![n, M]⟩ .f32) = mm X W := by
  funext i
  rw [eq_ix2 i]
  exact dotGeneral_apply d hd none .single X W (i 0) (i 1)

/-- A kernel's plain matrix-unit product into a zero accumulator is the matrix product. -/
theorem matmul_eq_mm {φ₁ φ₂ : FTy} (d : DotDims ⟨2, ![n, K]⟩ ⟨2, ![K, M]⟩ ⟨2, ![n, M]⟩) (hd : IsPlain d)
    (X : FVec Ideal ⟨2, ![n, K]⟩ φ₁) (W : FVec Ideal ⟨2, ![K, M]⟩ φ₂) :
    (matmul d none X W (constant ⟨2, ![n, M]⟩ .f32 0x00000000#32) : FVec Ideal ⟨2, ![n, M]⟩ .f32) = mm X W := by
  funext i
  rw [eq_ix2 i]
  exact matmul_zero_apply d hd none X W (i 0) (i 1)

/-- A matrix product depends on the left operand only through the rows it reads and on the right operand only
    through its entries: two products agree at entry i when row i 0 of the left operands and the right operands agree. -/
theorem mm_congr (X : (⟨2, ![n, K]⟩ : Shape).Idx → EReal) (W : (⟨2, ![K, M]⟩ : Shape).Idx → EReal)
    {n' : Nat} (X' : (⟨2, ![n', K]⟩ : Shape).Idx → EReal) (W' : (⟨2, ![K, M]⟩ : Shape).Idx → EReal)
    (i : (⟨2, ![n, M]⟩ : Shape).Idx) (i' : (⟨2, ![n', M]⟩ : Shape).Idx)
    (hX : ∀ k : Fin K, X (ix2 (i 0) k) = X' (ix2 (i' 0) k)) (hW : ∀ k : Fin K, W (ix2 k (i 1)) = W' (ix2 k (i' 1))) :
    mm X W i = mm X' W' i' := by
  unfold mm
  exact Finset.sum_congr rfl fun k _ => by rw [hX k, hW k]

/-- Two matrices side by side along the contracted axis: the product with T is the sum of the products with the
    first 133 rows of T and with its last 300 rows. -/
theorem mm_concat (fa : (⟨2, ![n, 133]⟩ : Shape).Idx → EReal) (am : (⟨2, ![n, 300]⟩ : Shape).Idx → EReal)
    (T : (⟨2, ![433, M]⟩ : Shape).Idx → EReal)
    (h : Shape.Concatenates [⟨2, ![n, 133]⟩, ⟨2, ![n, 300]⟩] ⟨2, ![n, 433]⟩ 1)
    (W1 : (⟨2, ![133, M]⟩ : Shape).Idx → EReal) (W2 : (⟨2, ![300, M]⟩ : Shape).Idx → EReal)
    (hW1 : ∀ (k : Fin 133) (q : Fin M), W1 (ix2 k q) = T (ix2 (Fin.castAdd 300 k) q))
    (hW2 : ∀ (k : Fin 300) (q : Fin M), W2 (ix2 k q) = T (ix2 (Fin.natAdd 133 k) q))
    (i : (⟨2, ![n, M]⟩ : Shape).Idx) :
    mm (concatenate ⟨2, ![n, 433]⟩ 1 [⟨⟨2, ![n, 133]⟩, fa⟩, ⟨⟨2, ![n, 300]⟩, am⟩] h) T i = mm fa W1 i + mm am W2 i := by
  unfold mm
  rw [Fin.sum_univ_add (a := 133) (b := 300)
    (fun k => concatenate ⟨2, ![n, 433]⟩ 1 [⟨⟨2, ![n, 133]⟩, fa⟩, ⟨⟨2, ![n, 300]⟩, am⟩] h (ix2 (i 0) k) * T (ix2 k (i 1)))]
  congr 1
  · refine Finset.sum_congr rfl fun k _ => ?_
    exact congrArg₂ (· * ·)
      (concatenate_pair_apply_left (t := ⟨2, ![n, 433]⟩) 1 fa am h (ix2 (i 0) (Fin.castAdd 300 k)) rfl (ix2 (i 0) k)
        (fun b => match b with | ⟨0, _⟩ => rfl | ⟨1, _⟩ => rfl))
      (hW1 k (i 1)).symm
  · refine Finset.sum_congr rfl fun k _ => ?_
    exact congrArg₂ (· * ·)
      (concatenate_pair_apply_right (t := ⟨2, ![n, 433]⟩) 1 fa am h (ix2 (i 0) (Fin.natAdd 133 k)) rfl rfl (ix2 (i 0) k)
        (fun b hb => match b, hb with | ⟨0, _⟩, _ => rfl | ⟨1, _⟩, hb => absurd rfl hb)
        (by show k.val + 133 = 133 + k.val; omega))
      (hW2 k (i 1)).symm

end Cert.Mpn

end
-- ==== Proof.Region0.lean ====
/-
  The first dense layer, as whole arrays.

  The first region cuts the 131072 bond rows into 64 blocks of 2048 rows. At block t it multiplies rows
  2048 t … 2048 t + 2047 of the bond features by the whole 147-by-300 weight matrix and writes the products to the
  same rows of its first result and the products clamped below at zero to the same rows of its second result. The
  blocks tile the results, so after the region the first result is the matrix product of the two arrays the region
  was entered with, and the second is that product rectified.
-/
import proofs.«160048_j18339510354321_2_alg».proof.Proof.Gen.KernelIdeal.Frame
import proofs.«160048_j18339510354321_2_alg».proof.Proof.Algebra

set_option maxRecDepth 16384

noncomputable section

namespace Cert.KernelIdeal.Region0

open Cert.KernelIdeal Cert.KernelIdeal.Gen Cert.Mpn Cert.LibPlainDot
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

theorem plain : IsPlain dot_S2048x147_S147x300_S2048x300_1_0_0_1_n_n := ⟨rfl, rfl, rfl, rfl, rfl, rfl⟩

/-- The body's product of a block of rows with the weights is their matrix product. -/
theorem pay1_eq (x0 : Vec Ideal S2048x147 .f32) (x1 : Vec Ideal S147x300 .bf16) : k0_pay1 x0 x1 = mm x0 x1 := by
  unfold k0_pay1
  dsimp only
  rw [shapeCast_self]
  exact matmul_eq_mm _ plain x0 x1

theorem pay2_eq (x0 : Vec Ideal S2048x147 .f32) (x1 : Vec Ideal S147x300 .bf16) : k0_pay2 x0 x1 = mm x0 x1 := by
  unfold k0_pay2
  exact pay1_eq x0 x1

theorem pay3_eq (x0 : Vec Ideal S2048x147 .f32) (x1 : Vec Ideal S147x300 .bf16) : k0_pay3 x0 x1 = relu0 (mm x0 x1) := by
  unfold k0_pay3
  dsimp only
  rw [pay1_eq]
  rfl

/-- The printed index maps over the grid: block t of the bond features and of both results is rows 2048 t …, the
    weights are one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Block t of a matrix product with the whole weights is the product of block t of the rows. -/
theorem blk_mm (c : Dev nD) (t : Fin cfg0.N) (j : S2048x300.Idx) (e : S131072x300.Idx)
    (he0 : (e 0).val = t.val * 2048 + (j 0).val) (he1 : (e 1).val = (j 1).val) :
    mm (iblk0 V c 0 t : Vec Ideal S2048x147 .f32) (iblk0 V c 1 t : Vec Ideal S147x300 .bf16) j
      = mm (V c main_arg1 : Vec Ideal S131072x147 .f32) (V c main_v1 : Vec Ideal S147x300 .bf16) e := by
  obtain ⟨e0, e1, e2, e3, e4, e5, e6, e7⟩ := idx_facts t
  refine mm_congr _ _ _ _ j e (fun k => ?_) (fun k => ?_)
  · show V c main_arg1 (((cfg0.win 0).blk t).view.emb (ix2 (j 0) k)) = V c main_arg1 (ix2 (e 0) k)
    refine congrArg _ (funext fun a => Fin.ext ?_)
    match a with
    | ⟨0, _⟩ => show win0_0.index t (0 : Fin 2) * 2048 + 1 * (j 0).val = (e 0).val; omega
    | ⟨1, _⟩ => show win0_0.index t (1 : Fin 2) * 147 + 1 * k.val = k.val; omega
  · show V c main_v1 (((cfg0.win 1).blk t).view.emb (ix2 k (j 1))) = V c main_v1 (ix2 k (e 1))
    refine congrArg _ (funext fun a => Fin.ext ?_)
    match a with
    | ⟨0, _⟩ => show win0_1.index t (0 : Fin 2) * 147 + 1 * k.val = k.val; omega
    | ⟨1, _⟩ => show win0_1.index t (1 : Fin 2) * 300 + 1 * (j 1).val = (e 1).val; omega

/-- What point t writes back to the first result is block t of the matrix product. -/
theorem flushed2_eq (c : Dev nD) (t : Fin cfg0.N) :
    (dat0 V c).flushed 2 t = ((cfg0.win 2).blk t).view.read (Elt Ideal) (mm (V c main_arg1) (V c main_v1)) := by
  show (cfg0.win 2).cut (grid0.coords t) ((dat0 V c).after 2 t) = _
  rw [after0_2]
  unfold out0_2
  rw [View.canon_unit_zero hz]
  simp only [View.ld_unit_zero (S := S2048x147) hz, View.ld_unit_zero (S := S147x300) hz]
  rw [pay2_eq]
  obtain ⟨e0, e1, e2, e3, e4, e5, e6, e7⟩ := idx_facts t
  funext j
  refine blk_mm V c t j (((cfg0.win 2).blk t).view.emb j) ?_ ?_
  · show win0_2.index t (0 : Fin 2) * 2048 + 1 * (j 0).val = _; omega
  · show win0_2.index t (1 : Fin 2) * 300 + 1 * (j 1).val = _; omega

/-- What point t writes back to the second result is block t of the rectified matrix product. -/
theorem flushed3_eq (c : Dev nD) (t : Fin cfg0.N) :
    (dat0 V c).flushed 3 t = ((cfg0.win 3).blk t).view.read (Elt Ideal) (relu0 (mm (V c main_arg1) (V c main_v1))) := by
  show (cfg0.win 3).cut (grid0.coords t) ((dat0 V c).after 3 t) = _
  rw [after0_3]
  unfold out0_3
  rw [View.canon_unit_zero hz]
  simp only [View.ld_unit_zero (S := S2048x147) hz, View.ld_unit_zero (S := S147x300) hz]
  rw [pay3_eq]
  obtain ⟨e0, e1, e2, e3, e4, e5, e6, e7⟩ := idx_facts t
  funext j
  refine congrArg (fun v => max v (Ideal.ofBits .f32 0x00000000#32)) (blk_mm V c t j (((cfg0.win 3).blk t).view.emb j) ?_ ?_)
  · show win0_3.index t (0 : Fin 2) * 2048 + 1 * (j 0).val = _; omega
  · show win0_3.index t (1 : Fin 2) * 300 + 1 * (j 1).val = _; omega

theorem mem_blk2 (t : Fin cfg0.N) (i : S131072x300.Idx) :
    i ∈ ((cfg0.win 2).blk t).view.set ↔ ∀ a : Fin 2, win0_2.index t a * S2048x300.size a ≤ (i a).val ∧ (i a).val < win0_2.index t a * S2048x300.size a + S2048x300.size a := by
  show i ∈ ((View.whole main_v9_0).slice (win0_2.rect t)).set ↔ _
  rw [View.set_slice_whole, Rect.mem_set_unit]
  exact Iff.rfl

theorem mem_blk3 (t : Fin cfg0.N) (i : S131072x300.Idx) :
    i ∈ ((cfg0.win 3).blk t).view.set ↔ ∀ a : Fin 2, win0_3.index t a * S2048x300.size a ≤ (i a).val ∧ (i a).val < win0_3.index t a * S2048x300.size a + S2048x300.size a := by
  show i ∈ ((View.whole main_v9_1).slice (win0_3.rect t)).set ↔ _
  rw [View.set_slice_whole, Rect.mem_set_unit]
  exact Iff.rfl

/-- Row r lies in block r / 2048. -/
theorem cover2 (i : S131072x300.Idx) : ∃ t : Fin cfg0.N, (cfg0.win 2).flush t = true ∧ i ∈ ((cfg0.win 2).blk t).view.set := by
  have hi0 : (i 0).val < 131072 := (i 0).isLt
  have hi1 : (i 1).val < 300 := (i 1).isLt
  refine ⟨Fin.cast N_0.symm ⟨(i 0).val / 2048, by omega⟩, flush0_2 _, ?_⟩
  rw [mem_blk2]
  obtain ⟨e0, e1, e2, e3, e4, e5, e6, e7⟩ := idx_facts (Fin.cast N_0.symm ⟨(i 0).val / 2048, by omega⟩)
  have e4' : win0_2.index (Fin.cast N_0.symm ⟨(i 0).val / 2048, by omega⟩) (0 : Fin 2) = (i 0).val / 2048 := e4
  intro a
  match a with
  | ⟨0, _⟩ => show win0_2.index _ (0 : Fin 2) * 2048 ≤ (i 0).val ∧ (i 0).val < win0_2.index _ (0 : Fin 2) * 2048 + 2048; omega
  | ⟨1, _⟩ => show win0_2.index _ (1 : Fin 2) * 300 ≤ (i 1).val ∧ (i 1).val < win0_2.index _ (1 : Fin 2) * 300 + 300; omega

theorem cover3 (i : S131072x300.Idx) : ∃ t : Fin cfg0.N, (cfg0.win 3).flush t = true ∧ i ∈ ((cfg0.win 3).blk t).view.set := by
  have hi0 : (i 0).val < 131072 := (i 0).isLt
  have hi1 : (i 1).val < 300 := (i 1).isLt
  refine ⟨Fin.cast N_0.symm ⟨(i 0).val / 2048, by omega⟩, flush0_3 _, ?_⟩
  rw [mem_blk3]
  obtain ⟨e0, e1, e2, e3, e4, e5, e6, e7⟩ := idx_facts (Fin.cast N_0.symm ⟨(i 0).val / 2048, by omega⟩)
  have e6' : win0_3.index (Fin.cast N_0.symm ⟨(i 0).val / 2048, by omega⟩) (0 : Fin 2) = (i 0).val / 2048 := e6
  intro a
  match a with
  | ⟨0, _⟩ => show win0_3.index _ (0 : Fin 2) * 2048 ≤ (i 0).val ∧ (i 0).val < win0_3.index _ (0 : Fin 2) * 2048 + 2048; omega
  | ⟨1, _⟩ => show win0_3.index _ (1 : Fin 2) * 300 ≤ (i 1).val ∧ (i 1).val < win0_3.index _ (1 : Fin 2) * 300 + 300; omega

/-- After the region the first result is the matrix product of the arrays it was entered with. -/
theorem final2 (c : Dev nD) : (dat0 V c).arrAt 2 cfg0.N = mm (V c main_arg1) (V c main_v1) :=
  (dat0 V c).arrAt_eq_of_cover 2 _ (fun t _ => flushed2_eq V c t) cover2

/-- After the region the second result is that product rectified. -/
theorem final3 (c : Dev nD) : (dat0 V c).arrAt 3 cfg0.N = relu0 (mm (V c main_arg1) (V c main_v1)) :=
  (dat0 V c).arrAt_eq_of_cover 3 _ (fun t _ => flushed3_eq V c t) cover3

end Cert.KernelIdeal.Region0

end
-- ==== Proof.Region1.lean ====
/-
  A message-update layer, as whole arrays.

  The region cuts the 131072 bond rows into 64 blocks of 2048 rows. At block t it multiplies rows 2048 t … of the
  bond differences by the whole 300-by-300 weight matrix, adds the same rows of inp, clamps below at zero and
  writes the result to the same rows of its output. The blocks tile the output, so after the region it is
  inp plus the matrix product, rectified, of the arrays the region was entered with.
-/
import proofs.«160048_j18339510354321_2_alg».proof.Proof.Gen.KernelIdeal.Frame
import proofs.«160048_j18339510354321_2_alg».proof.Proof.Algebra

set_option maxRecDepth 16384

noncomputable section

namespace Cert.KernelIdeal.Region1

open Cert.KernelIdeal Cert.KernelIdeal.Gen Cert.Mpn Cert.LibPlainDot
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

theorem plain : IsPlain dot_S2048x300_S300x300_S2048x300_1_0_0_1_n_n := ⟨rfl, rfl, rfl, rfl, rfl, rfl⟩

/-- The layer on arrays of any number of rows: the skip operand plus the product, rectified. -/
def layer {n : Nat} (i0 u : (⟨2, ![n, 300]⟩ : Shape).Idx → EReal) (W : (⟨2, ![300, 300]⟩ : Shape).Idx → EReal) :
    (⟨2, ![n, 300]⟩ : Shape).Idx → EReal :=
  relu0 (fun i => i0 i + mm u W i)

/-- Two layers agree at an entry when their skip operands and their products do. -/
theorem layer_congr {n n' : Nat} (i0 u : (⟨2, ![n, 300]⟩ : Shape).Idx → EReal) (W : (⟨2, ![300, 300]⟩ : Shape).Idx → EReal)
    (i0' u' : (⟨2, ![n', 300]⟩ : Shape).Idx → EReal) (W' : (⟨2, ![300, 300]⟩ : Shape).Idx → EReal)
    (j : (⟨2, ![n, 300]⟩ : Shape).Idx) (e : (⟨2, ![n', 300]⟩ : Shape).Idx)
    (h0 : i0 j = i0' e) (hm : mm u W j = mm u' W' e) : layer i0 u W j = layer i0' u' W' e := by
  show max (i0 j + mm u W j) _ = max (i0' e + mm u' W' e) _
  rw [h0, hm]

/-- The body's result on a block: the layer of the block's rows. -/
theorem pay1_eq (v0 : Vec Ideal S2048x300 .bf16) (v2 : Vec Ideal S300x300 .bf16) (v5 : Vec Ideal S2048x300 .bf16) :
    k1_pay1 v0 v2 v5 = layer v5 v0 v2 := by
  unfold k1_pay1
  dsimp only
  simp only [shapeCast_self]
  rw [matmul_eq_mm _ plain v0 v2]
  rfl

/-- The printed index maps over the grid: block t of inp, of the bond differences and of the output is rows
    2048 t …, the weights are one block. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is block t of the layer of the whole arrays. -/
theorem flushed3_eq (c : Dev nD) (t : Fin cfg1.N) :
    (dat1 V c).flushed 3 t = ((cfg1.win 3).blk t).view.read (Elt Ideal)
      (layer (V c main_v9_0 : Vec Ideal S131072x300 .bf16) (V c main_v37 : Vec Ideal S131072x300 .bf16) (V c main_v3 : Vec Ideal S300x300 .bf16)) := by
  show (cfg1.win 3).cut (grid1.coords t) ((dat1 V c).after 3 t) = _
  rw [after1_3]
  unfold out1_3
  rw [View.canon_unit_zero hz]
  simp only [View.ld_unit_zero (S := S2048x300) hz, View.ld_unit_zero (S := S300x300) hz]
  rw [pay1_eq]
  obtain ⟨e0, e1, e2, e3, e4, e5, e6, e7⟩ := idx_facts t
  funext j
  have h0 : ((((cfg1.win 3).blk t).view.emb j) 0).val = t.val * 2048 + (j 0).val := by
    show win1_3.index t (0 : Fin 2) * 2048 + 1 * (j 0).val = _; omega
  have h1 : ((((cfg1.win 3).blk t).view.emb j) 1).val = (j 1).val := by
    show win1_3.index t (1 : Fin 2) * 300 + 1 * (j 1).val = _; omega
  refine layer_congr _ _ _ _ _ _ j (((cfg1.win 3).blk t).view.emb j) ?_ ?_
  · show V c main_v9_0 (((cfg1.win 0).blk t).view.emb j) = V c main_v9_0 (((cfg1.win 3).blk t).view.emb j)
    refine congrArg _ (funext fun a => Fin.ext ?_)
    match a with
    | ⟨0, _⟩ => show win1_0.index t (0 : Fin 2) * 2048 + 1 * (j 0).val = win1_3.index t (0 : Fin 2) * 2048 + 1 * (j 0).val; omega
    | ⟨1, _⟩ => show win1_0.index t (1 : Fin 2) * 300 + 1 * (j 1).val = win1_3.index t (1 : Fin 2) * 300 + 1 * (j 1).val; omega
  · refine mm_congr _ _ _ _ j (((cfg1.win 3).blk t).view.emb j) (fun k => ?_) (fun k => ?_)
    · show V c main_v37 (((cfg1.win 1).blk t).view.emb (ix2 (j 0) k)) = V c main_v37 (ix2 ((((cfg1.win 3).blk t).view.emb j) 0) k)
      refine congrArg _ (funext fun a => Fin.ext ?_)
      match a with
      | ⟨0, _⟩ => show win1_1.index t (0 : Fin 2) * 2048 + 1 * (j 0).val = ((((cfg1.win 3).blk t).view.emb j) 0).val; omega
      | ⟨1, _⟩ => show win1_1.index t (1 : Fin 2) * 300 + 1 * k.val = k.val; omega
    · show V c main_v3 (((cfg1.win 2).blk t).view.emb (ix2 k (j 1))) = V c main_v3 (ix2 k ((((cfg1.win 3).blk t).view.emb j) 1))
      refine congrArg _ (funext fun a => Fin.ext ?_)
      match a with
      | ⟨0, _⟩ => show win1_2.index t (0 : Fin 2) * 300 + 1 * k.val = k.val; omega
      | ⟨1, _⟩ => show win1_2.index t (1 : Fin 2) * 300 + 1 * (j 1).val = ((((cfg1.win 3).blk t).view.emb j) 1).val; omega

theorem mem_blk3 (t : Fin cfg1.N) (i : S131072x300.Idx) :
    i ∈ ((cfg1.win 3).blk t).view.set ↔ ∀ a : Fin 2, win1_3.index t a * S2048x300.size a ≤ (i a).val ∧ (i a).val < win1_3.index t a * S2048x300.size a + S2048x300.size a := by
  show i ∈ ((View.whole main_v38).slice (win1_3.rect t)).set ↔ _
  rw [View.set_slice_whole, Rect.mem_set_unit]
  exact Iff.rfl

/-- Row r lies in block r / 2048. -/
theorem cover3 (i : S131072x300.Idx) : ∃ t : Fin cfg1.N, (cfg1.win 3).flush t = true ∧ i ∈ ((cfg1.win 3).blk t).view.set := by
  have hi0 : (i 0).val < 131072 := (i 0).isLt
  have hi1 : (i 1).val < 300 := (i 1).isLt
  refine ⟨Fin.cast N_1.symm ⟨(i 0).val / 2048, by omega⟩, flush1_3 _, ?_⟩
  rw [mem_blk3]
  obtain ⟨e0, e1, e2, e3, e4, e5, e6, e7⟩ := idx_facts (Fin.cast N_1.symm ⟨(i 0).val / 2048, by omega⟩)
  have e6' : win1_3.index (Fin.cast N_1.symm ⟨(i 0).val / 2048, by omega⟩) (0 : Fin 2) = (i 0).val / 2048 := e6
  intro a
  match a with
  | ⟨0, _⟩ => show win1_3.index _ (0 : Fin 2) * 2048 ≤ (i 0).val ∧ (i 0).val < win1_3.index _ (0 : Fin 2) * 2048 + 2048; omega
  | ⟨1, _⟩ => show win1_3.index _ (1 : Fin 2) * 300 ≤ (i 1).val ∧ (i 1).val < win1_3.index _ (1 : Fin 2) * 300 + 300; omega

/-- After the region its output is the layer of the arrays it was entered with. -/
theorem final3 (c : Dev nD) : (dat1 V c).arrAt 3 cfg1.N
    = layer (V c main_v9_0 : Vec Ideal S131072x300 .bf16) (V c main_v37 : Vec Ideal S131072x300 .bf16) (V c main_v3 : Vec Ideal S300x300 .bf16) :=
  (dat1 V c).arrAt_eq_of_cover 3 _ (fun t _ => flushed3_eq V c t) cover3

end Cert.KernelIdeal.Region1

end
-- ==== Proof.Region2.lean ====
/-
  The second message-update layer, as whole arrays.

  The region cuts the 131072 bond rows into 64 blocks of 2048 rows. At block t it multiplies rows 2048 t … of the
  bond differences by the whole 300-by-300 weight matrix, adds the same rows of inp, clamps below at zero and
  writes the result to the same rows of its output. The blocks tile the output, so after the region it is
  inp plus the matrix product, rectified, of the arrays the region was entered with.
-/
import proofs.«160048_j18339510354321_2_alg».proof.Proof.Gen.KernelIdeal.Frame
import proofs.«160048_j18339510354321_2_alg».proof.Proof.Algebra

set_option maxRecDepth 16384

noncomputable section

namespace Cert.KernelIdeal.Region2

open Cert.KernelIdeal Cert.KernelIdeal.Gen Cert.Mpn Cert.LibPlainDot
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

theorem plain : IsPlain dot_S2048x300_S300x300_S2048x300_1_0_0_1_n_n := ⟨rfl, rfl, rfl, rfl, rfl, rfl⟩

/-- The layer on arrays of any number of rows: the skip operand plus the product, rectified. -/
def layer {n : Nat} (i0 u : (⟨2, ![n, 300]⟩ : Shape).Idx → EReal) (W : (⟨2, ![300, 300]⟩ : Shape).Idx → EReal) :
    (⟨2, ![n, 300]⟩ : Shape).Idx → EReal :=
  relu0 (fun i => i0 i + mm u W i)

/-- Two layers agree at an entry when their skip operands and their products do. -/
theorem layer_congr {n n' : Nat} (i0 u : (⟨2, ![n, 300]⟩ : Shape).Idx → EReal) (W : (⟨2, ![300, 300]⟩ : Shape).Idx → EReal)
    (i0' u' : (⟨2, ![n', 300]⟩ : Shape).Idx → EReal) (W' : (⟨2, ![300, 300]⟩ : Shape).Idx → EReal)
    (j : (⟨2, ![n, 300]⟩ : Shape).Idx) (e : (⟨2, ![n', 300]⟩ : Shape).Idx)
    (h0 : i0 j = i0' e) (hm : mm u W j = mm u' W' e) : layer i0 u W j = layer i0' u' W' e := by
  show max (i0 j + mm u W j) _ = max (i0' e + mm u' W' e) _
  rw [h0, hm]

/-- The body's result on a block: the layer of the block's rows. -/
theorem pay1_eq (v0 : Vec Ideal S2048x300 .bf16) (v2 : Vec Ideal S300x300 .bf16) (v5 : Vec Ideal S2048x300 .bf16) :
    k2_pay1 v0 v2 v5 = layer v5 v0 v2 := by
  unfold k2_pay1
  dsimp only
  simp only [shapeCast_self]
  rw [matmul_eq_mm _ plain v0 v2]
  rfl

/-- The printed index maps over the grid: block t of inp, of the bond differences and of the output is rows
    2048 t …, the weights are one block. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point t writes back is block t of the layer of the whole arrays. -/
theorem flushed3_eq (c : Dev nD) (t : Fin cfg2.N) :
    (dat2 V c).flushed 3 t = ((cfg2.win 3).blk t).view.read (Elt Ideal)
      (layer (V c main_v9_0 : Vec Ideal S131072x300 .bf16) (V c main_v66 : Vec Ideal S131072x300 .bf16) (V c main_v3 : Vec Ideal S300x300 .bf16)) := by
  show (cfg2.win 3).cut (grid2.coords t) ((dat2 V c).after 3 t) = _
  rw [after2_3]
  unfold out2_3
  rw [View.canon_unit_zero hz]
  simp only [View.ld_unit_zero (S := S2048x300) hz, View.ld_unit_zero (S := S300x300) hz]
  rw [pay1_eq]
  obtain ⟨e0, e1, e2, e3, e4, e5, e6, e7⟩ := idx_facts t
  funext j
  have h0 : ((((cfg2.win 3).blk t).view.emb j) 0).val = t.val * 2048 + (j 0).val := by
    show win2_3.index t (0 : Fin 2) * 2048 + 1 * (j 0).val = _; omega
  have h1 : ((((cfg2.win 3).blk t).view.emb j) 1).val = (j 1).val := by
    show win2_3.index t (1 : Fin 2) * 300 + 1 * (j 1).val = _; omega
  refine layer_congr _ _ _ _ _ _ j (((cfg2.win 3).blk t).view.emb j) ?_ ?_
  · show V c main_v9_0 (((cfg2.win 0).blk t).view.emb j) = V c main_v9_0 (((cfg2.win 3).blk t).view.emb j)
    refine congrArg _ (funext fun a => Fin.ext ?_)
    match a with
    | ⟨0, _⟩ => show win2_0.index t (0 : Fin 2) * 2048 + 1 * (j 0).val = win2_3.index t (0 : Fin 2) * 2048 + 1 * (j 0).val; omega
    | ⟨1, _⟩ => show win2_0.index t (1 : Fin 2) * 300 + 1 * (j 1).val = win2_3.index t (1 : Fin 2) * 300 + 1 * (j 1).val; omega
  · refine mm_congr _ _ _ _ j (((cfg2.win 3).blk t).view.emb j) (fun k => ?_) (fun k => ?_)
    · show V c main_v66 (((cfg2.win 1).blk t).view.emb (ix2 (j 0) k)) = V c main_v66 (ix2 ((((cfg2.win 3).blk t).view.emb j) 0) k)
      refine congrArg _ (funext fun a => Fin.ext ?_)
      match a with
      | ⟨0, _⟩ => show win2_1.index t (0 : Fin 2) * 2048 + 1 * (j 0).val = ((((cfg2.win 3).blk t).view.emb j) 0).val; omega
      | ⟨1, _⟩ => show win2_1.index t (1 : Fin 2) * 300 + 1 * k.val = k.val; omega
    · show V c main_v3 (((cfg2.win 2).blk t).view.emb (ix2 k (j 1))) = V c main_v3 (ix2 k ((((cfg2.win 3).blk t).view.emb j) 1))
      refine congrArg _ (funext fun a => Fin.ext ?_)
      match a with
      | ⟨0, _⟩ => show win2_2.index t (0 : Fin 2) * 300 + 1 * k.val = k.val; omega
      | ⟨1, _⟩ => show win2_2.index t (1 : Fin 2) * 300 + 1 * (j 1).val = ((((cfg2.win 3).blk t).view.emb j) 1).val; omega

theorem mem_blk3 (t : Fin cfg2.N) (i : S131072x300.Idx) :
    i ∈ ((cfg2.win 3).blk t).view.set ↔ ∀ a : Fin 2, win2_3.index t a * S2048x300.size a ≤ (i a).val ∧ (i a).val < win2_3.index t a * S2048x300.size a + S2048x300.size a := by
  show i ∈ ((View.whole main_v67).slice (win2_3.rect t)).set ↔ _
  rw [View.set_slice_whole, Rect.mem_set_unit]
  exact Iff.rfl

/-- Row r lies in block r / 2048. -/
theorem cover3 (i : S131072x300.Idx) : ∃ t : Fin cfg2.N, (cfg2.win 3).flush t = true ∧ i ∈ ((cfg2.win 3).blk t).view.set := by
  have hi0 : (i 0).val < 131072 := (i 0).isLt
  have hi1 : (i 1).val < 300 := (i 1).isLt
  refine ⟨Fin.cast N_2.symm ⟨(i 0).val / 2048, by omega⟩, flush2_3 _, ?_⟩
  rw [mem_blk3]
  obtain ⟨e0, e1, e2, e3, e4, e5, e6, e7⟩ := idx_facts (Fin.cast N_2.symm ⟨(i 0).val / 2048, by omega⟩)
  have e6' : win2_3.index (Fin.cast N_2.symm ⟨(i 0).val / 2048, by omega⟩) (0 : Fin 2) = (i 0).val / 2048 := e6
  intro a
  match a with
  | ⟨0, _⟩ => show win2_3.index _ (0 : Fin 2) * 2048 ≤ (i 0).val ∧ (i 0).val < win2_3.index _ (0 : Fin 2) * 2048 + 2048; omega
  | ⟨1, _⟩ => show win2_3.index _ (1 : Fin 2) * 300 ≤ (i 1).val ∧ (i 1).val < win2_3.index _ (1 : Fin 2) * 300 + 300; omega

/-- After the region its output is the layer of the arrays it was entered with. -/
theorem final3 (c : Dev nD) : (dat2 V c).arrAt 3 cfg2.N
    = layer (V c main_v9_0 : Vec Ideal S131072x300 .bf16) (V c main_v66 : Vec Ideal S131072x300 .bf16) (V c main_v3 : Vec Ideal S300x300 .bf16) :=
  (dat2 V c).arrAt_eq_of_cover 3 _ (fun t _ => flushed3_eq V c t) cover3

end Cert.KernelIdeal.Region2

end
-- ==== Proof.Region3.lean ====
/-
  The atom layer, as whole arrays.

  The last region cuts the 65536 atom rows into 32 blocks of 2048 rows. At block t it multiplies rows 2048 t … of
  the atom features by a 133-by-300 matrix and the same rows of the incoming-message sums by a 300-by-300 matrix,
  adds the two products and the one-row bias, clamps below at zero and writes the same rows of its output. The
  blocks tile the output, so after the region it is that function of the arrays the region was entered with.
-/
import proofs.«160048_j18339510354321_2_alg».proof.Proof.Gen.KernelIdeal.Frame
import proofs.«160048_j18339510354321_2_alg».proof.Proof.Algebra

set_option maxRecDepth 16384

noncomputable section

namespace Cert.KernelIdeal.Region3

open Cert.KernelIdeal Cert.KernelIdeal.Gen Cert.Mpn Cert.LibPlainDot
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

theorem plainA : IsPlain dot_S2048x133_S133x300_S2048x300_1_0_0_1_n_n := ⟨rfl, rfl, rfl, rfl, rfl, rfl⟩
theorem plainB : IsPlain dot_S2048x300_S300x300_S2048x300_1_0_0_1_n_n := ⟨rfl, rfl, rfl, rfl, rfl, rfl⟩

/-- The layer on arrays of any number of rows: the two products added, plus the bias row, rectified. -/
def layer {n : Nat} (fa : (⟨2, ![n, 133]⟩ : Shape).Idx → EReal) (am : (⟨2, ![n, 300]⟩ : Shape).Idx → EReal)
    (W1 : (⟨2, ![133, 300]⟩ : Shape).Idx → EReal) (W2 : (⟨2, ![300, 300]⟩ : Shape).Idx → EReal)
    (b2 : (⟨2, ![1, 300]⟩ : Shape).Idx → EReal) : (⟨2, ![n, 300]⟩ : Shape).Idx → EReal :=
  relu0 (fun i => (mm fa W1 i + mm am W2 i) + b2 (ix2 0 (i 1)))

/-- Two layers agree at an entry when their two products and their bias entries do. -/
theorem layer_congr {n n' : Nat} (fa : (⟨2, ![n, 133]⟩ : Shape).Idx → EReal) (am : (⟨2, ![n, 300]⟩ : Shape).Idx → EReal)
    (W1 : (⟨2, ![133, 300]⟩ : Shape).Idx → EReal) (W2 : (⟨2, ![300, 300]⟩ : Shape).Idx → EReal) (b2 : (⟨2, ![1, 300]⟩ : Shape).Idx → EReal)
    (fa' : (⟨2, ![n', 133]⟩ : Shape).Idx → EReal) (am' : (⟨2, ![n', 300]⟩ : Shape).Idx → EReal)
    (W1' : (⟨2, ![133, 300]⟩ : Shape).Idx → EReal) (W2' : (⟨2, ![300, 300]⟩ : Shape).Idx → EReal) (b2' : (⟨2, ![1, 300]⟩ : Shape).Idx → EReal)
    (j : (⟨2, ![n, 300]⟩ : Shape).Idx) (e : (⟨2, ![n', 300]⟩ : Shape).Idx)
    (hA : mm fa W1 j = mm fa' W1' e) (hB : mm am W2 j = mm am' W2' e) (hb : b2 (ix2 0 (j 1)) = b2' (ix2 0 (e 1))) :
    layer fa am W1 W2 b2 j = layer fa' am' W1' W2' b2' e := by
  show max ((mm fa W1 j + mm am W2 j) + b2 (ix2 0 (j 1))) _ = max ((mm fa' W1' e + mm am' W2' e) + b2' (ix2 0 (e 1))) _
  rw [hA, hB, hb]

/-- The body's result on a block: the layer of the block's rows. -/
theorem pay1_eq (v0 : Vec Ideal S2048x133 .f32) (v2 : Vec Ideal S2048x300 .bf16) (v4 : Vec Ideal S133x300 .bf16)
    (v6 : Vec Ideal S300x300 .bf16) (v11 : Vec Ideal S1x300 .f32) : k3_pay1 v0 v2 v4 v6 v11 = layer v0 v2 v4 v6 v11 := by
  unfold k3_pay1
  dsimp only
  simp only [shapeCast_self]
  rw [matmul_eq_mm _ plainA (truncf .bf16 v0 _) v4, matmul_eq_mm _ plainB v2 v6]
  funext j
  have hb : broadcastTo S2048x300 v11 broadcasts_S1x300_S2048x300 j = v11 (ix2 0 (j 1)) :=
    broadcastTo_apply v11 _ j (ix2 0 (j 1)) (fun a => match a with
      | ⟨0, _⟩ => by show (0 : Nat) = if (1 : Nat) = 1 then 0 else _; rw [if_pos rfl]
      | ⟨1, _⟩ => by show (j 1).val = if (300 : Nat) = 1 then 0 else (j 1).val; rw [if_neg (by decide)])
  show max ((mm v0 v4 j + mm v2 v6 j) + broadcastTo S2048x300 v11 broadcasts_S1x300_S2048x300 j) _ = _
  rw [hb]
  rfl

/-- The printed index maps over the grid: block t of the atom features, of the message sums and of the output is
    rows 2048 t …, the two weight matrices and the bias row are one block each. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

set_option maxHeartbeats 4000000 in
/-- What point t writes back is block t of the layer of the whole arrays. -/
theorem flushed5_eq (c : Dev nD) (t : Fin cfg3.N) :
    (dat3 V c).flushed 5 t = ((cfg3.win 5).blk t).view.read (Elt Ideal)
      (layer (V c main_arg0 : Vec Ideal S65536x133 .f32) (V c main_v77 : Vec Ideal S65536x300 .bf16) (V c main_v6 : Vec Ideal S133x300 .bf16)
        (V c main_v8 : Vec Ideal S300x300 .bf16) (V c main_v78 : Vec Ideal S1x300 .f32)) := by
  show (cfg3.win 5).cut (grid3.coords t) ((dat3 V c).after 5 t) = _
  rw [after3_5]
  unfold out3_5
  rw [View.canon_unit_zero hz]
  simp only [View.ld_unit_zero (S := S2048x133) hz, View.ld_unit_zero (S := S2048x300) hz, View.ld_unit_zero (S := S133x300) hz,
    View.ld_unit_zero (S := S300x300) hz, View.ld_unit_zero (S := S1x300) hz]
  rw [pay1_eq]
  obtain ⟨e0, e1, e2, e3, e4, e5, e6, e7, e8, e9, e10, e11⟩ := idx_facts t
  funext j
  have h0 : ((((cfg3.win 5).blk t).view.emb j) 0).val = t.val * 2048 + (j 0).val := by
    show win3_5.index t (0 : Fin 2) * 2048 + 1 * (j 0).val = _; omega
  have h1 : ((((cfg3.win 5).blk t).view.emb j) 1).val = (j 1).val := by
    show win3_5.index t (1 : Fin 2) * 300 + 1 * (j 1).val = _; omega
  refine layer_congr _ _ _ _ _ _ _ _ _ _ j (((cfg3.win 5).blk t).view.emb j) ?_ ?_ ?_
  · refine mm_congr _ _ _ _ j (((cfg3.win 5).blk t).view.emb j) (fun k => ?_) (fun k => ?_)
    · show V c main_arg0 (((cfg3.win 0).blk t).view.emb (ix2 (j 0) k)) = V c main_arg0 (ix2 ((((cfg3.win 5).blk t).view.emb j) 0) k)
      refine congrArg _ (funext fun a => Fin.ext ?_)
      match a with
      | ⟨0, _⟩ => show win3_0.index t (0 : Fin 2) * 2048 + 1 * (j 0).val = ((((cfg3.win 5).blk t).view.emb j) 0).val; omega
      | ⟨1, _⟩ => show win3_0.index t (1 : Fin 2) * 133 + 1 * k.val = k.val; omega
    · show V c main_v6 (((cfg3.win 2).blk t).view.emb (ix2 k (j 1))) = V c main_v6 (ix2 k ((((cfg3.win 5).blk t).view.emb j) 1))
      refine congrArg _ (funext fun a => Fin.ext ?_)
      match a with
      | ⟨0, _⟩ => show win3_2.index t (0 : Fin 2) * 133 + 1 * k.val = k.val; omega
      | ⟨1, _⟩ => show win3_2.index t (1 : Fin 2) * 300 + 1 * (j 1).val = ((((cfg3.win 5).blk t).view.emb j) 1).val; omega
  · refine mm_congr _ _ _ _ j (((cfg3.win 5).blk t).view.emb j) (fun k => ?_) (fun k => ?_)
    · show V c main_v77 (((cfg3.win 1).blk t).view.emb (ix2 (j 0) k)) = V c main_v77 (ix2 ((((cfg3.win 5).blk t).view.emb j) 0) k)
      refine congrArg _ (funext fun a => Fin.ext ?_)
      match a with
      | ⟨0, _⟩ => show win3_1.index t (0 : Fin 2) * 2048 + 1 * (j 0).val = ((((cfg3.win 5).blk t).view.emb j) 0).val; omega
      | ⟨1, _⟩ => show win3_1.index t (1 : Fin 2) * 300 + 1 * k.val = k.val; omega
    · show V c main_v8 (((cfg3.win 3).blk t).view.emb (ix2 k (j 1))) = V c main_v8 (ix2 k ((((cfg3.win 5).blk t).view.emb j) 1))
      refine congrArg _ (funext fun a => Fin.ext ?_)
      match a with
      | ⟨0, _⟩ => show win3_3.index t (0 : Fin 2) * 300 + 1 * k.val = k.val; omega
      | ⟨1, _⟩ => show win3_3.index t (1 : Fin 2) * 300 + 1 * (j 1).val = ((((cfg3.win 5).blk t).view.emb j) 1).val; omega
  · show V c main_v78 (((cfg3.win 4).blk t).view.emb (ix2 0 (j 1))) = V c main_v78 (ix2 0 ((((cfg3.win 5).blk t).view.emb j) 1))
    refine congrArg _ (funext fun a => Fin.ext ?_)
    match a with
    | ⟨0, _⟩ => show win3_4.index t (0 : Fin 2) * 1 + 1 * 0 = 0; omega
    | ⟨1, _⟩ => show win3_4.index t (1 : Fin 2) * 300 + 1 * (j 1).val = ((((cfg3.win 5).blk t).view.emb j) 1).val; omega

theorem mem_blk5 (t : Fin cfg3.N) (i : S65536x300.Idx) :
    i ∈ ((cfg3.win 5).blk t).view.set ↔ ∀ a : Fin 2, win3_5.index t a * S2048x300.size a ≤ (i a).val ∧ (i a).val < win3_5.index t a * S2048x300.size a + S2048x300.size a := by
  show i ∈ ((View.whole main_v79).slice (win3_5.rect t)).set ↔ _
  rw [View.set_slice_whole, Rect.mem_set_unit]
  exact Iff.rfl

/-- Row r lies in block r / 2048. -/
theorem cover5 (i : S65536x300.Idx) : ∃ t : Fin cfg3.N, (cfg3.win 5).flush t = true ∧ i ∈ ((cfg3.win 5).blk t).view.set := by
  have hi0 : (i 0).val < 65536 := (i 0).isLt
  have hi1 : (i 1).val < 300 := (i 1).isLt
  refine ⟨Fin.cast N_3.symm ⟨(i 0).val / 2048, by omega⟩, flush3_5 _, ?_⟩
  rw [mem_blk5]
  obtain ⟨e0, e1, e2, e3, e4, e5, e6, e7, e8, e9, e10, e11⟩ := idx_facts (Fin.cast N_3.symm ⟨(i 0).val / 2048, by omega⟩)
  have e10' : win3_5.index (Fin.cast N_3.symm ⟨(i 0).val / 2048, by omega⟩) (0 : Fin 2) = (i 0).val / 2048 := e10
  intro a
  match a with
  | ⟨0, _⟩ => show win3_5.index _ (0 : Fin 2) * 2048 ≤ (i 0).val ∧ (i 0).val < win3_5.index _ (0 : Fin 2) * 2048 + 2048; omega
  | ⟨1, _⟩ => show win3_5.index _ (1 : Fin 2) * 300 ≤ (i 1).val ∧ (i 1).val < win3_5.index _ (1 : Fin 2) * 300 + 300; omega

/-- After the region its output is the layer of the arrays it was entered with. -/
theorem final5 (c : Dev nD) : (dat3 V c).arrAt 5 cfg3.N
    = layer (V c main_arg0 : Vec Ideal S65536x133 .f32) (V c main_v77 : Vec Ideal S65536x300 .bf16) (V c main_v6 : Vec Ideal S133x300 .bf16)
        (V c main_v8 : Vec Ideal S300x300 .bf16) (V c main_v78 : Vec Ideal S1x300 .f32) :=
  (dat3 V c).arrAt_eq_of_cover 5 _ (fun t _ => flushed5_eq V c t) cover5

end Cert.KernelIdeal.Region3

end
-- ==== Proof.Encoder.lean ====
/-
  The message-passing encoder as one function of its ten arguments, over the extended reals.

  inp = bond features · W_iᵀ. The first messages are inp rectified. Twice: every atom sums the messages of its six
  incoming bonds, every bond takes its source atom's sum minus its reverse bond's message, and the new messages are
  inp plus that difference times W_hᵀ, rectified. Then every atom's hidden state is its features laid beside its
  incoming-message sum, times W_oᵀ, plus the bias, rectified; and every molecule's vector is the sum of its atoms'
  hidden states divided by the larger of its atom count and one. Gathers, the sum over neighbours, the scatter-add
  of the readout and the index arithmetic around them are the host's own operations, named here once; the dense
  layers are matrix products read entry by entry.
-/
import proofs.«160048_j18339510354321_2_alg».proof.ReferenceIdeal
import proofs.«160048_j18339510354321_2_alg».proof.Proof.Gen.ReferenceIdeal
import proofs.«160048_j18339510354321_2_alg».proof.Proof.Algebra

noncomputable section

namespace Cert.Mpn

open Cert.ReferenceIdeal Cert.ReferenceIdeal.Gen Idealize.ShloMosaic Idealize.ShloMosaic.ValueIdx

/-- A float array of shape S over the extended reals. -/
abbrev RV (S : Shape) := (⟨S, .f32⟩ : BufTy).Contents (Elt Ideal)
/-- An int32 array of shape S. -/
abbrev IV (S : Shape) := (⟨S, .i32⟩ : BufTy).Contents (Elt Ideal)

/-- An atom-to-bond index below zero counts from the end of the 131072 bonds. -/
def wrapA (a2b : IV S65536x6) : IV S65536x6 :=
  select (cmpi .slt a2b (broadcastInDim S65536x6 ![] bcast_S_S65536x6 (constantI S_ 32 0#32)))
    (addi a2b (broadcastInDim S65536x6 ![] bcast_S_S65536x6 (constantI S_ 32 131072#32))) a2b

/-- A per-bond index below zero counts from the end of an axis of extent n. -/
def wrapB (n : BitVec 32) (b : IV S131072) : IV S131072 :=
  select (cmpi .slt b (broadcastInDim S131072 ![] bcast_S_S131072 (constantI S_ 32 0#32)))
    (addi b (broadcastInDim S131072 ![] bcast_S_S131072 (constantI S_ 32 n))) b

/-- Every atom's sum of the messages of its six incoming bonds. -/
def aggr (msg : RV S131072x300) (a2b : IV S65536x6) : RV S65536x300 :=
  Host.reduceAdd (Host.gather gather_S131072x300_S65536x6x1_S65536x6x300_2_0_n_n_0_2_1300 msg
      (broadcastInDim S65536x6x1 ![0, 1] bcast_S65536x6_S65536x6x1_0_1 (wrapA a2b)))
    (constant (F := Ideal) S_ .f32 0x00000000#32) reducesTo_S65536x6x300_S65536x300_d1 h_S_

/-- Every bond's source-atom sum minus its reverse bond's message. -/
def upd (msg : RV S131072x300) (a2b : IV S65536x6) (b2a b2revb : IV S131072) : RV S131072x300 :=
  subf (F := Ideal) (φ := .f32) (Host.gather gather_S65536x300_S131072x1_S131072x300_1_0_n_n_0_1_1300 (aggr msg a2b)
      (broadcastInDim S131072x1 ![0] bcast_S131072_S131072x1_0 (wrapB 65536#32 b2a)))
    (Host.gather gather_S131072x300_S131072x1_S131072x300_1_0_n_n_0_1_1300 msg
      (broadcastInDim S131072x1 ![0] bcast_S131072_S131072x1_0 (wrapB 131072#32 b2revb)))

/-- The per-molecule mean readout: the scatter-add of the atoms' hidden states over the larger of the atom count and one. -/
def tail (atom : RV S65536x300) (mol : IV S65536) : RV S2048x300 :=
  Host.divf
    (Host.scatterAdd scatter_S2048x300_S65536x1_S65536x300_1_0_0_1
      (broadcastInDim S2048x300 ![] bcast_S_S2048x300 (constant (F := Ideal) S_ .f32 0x00000000#32))
      (broadcastInDim S65536x1 ![0] bcast_S65536_S65536x1_0 mol) atom)
    (broadcastInDim S2048x300 ![0, 1] bcast_S2048x1_S2048x300_0_1
      (broadcastInDim S2048x1 ![0] bcast_S2048_S2048x1_0
        (maximumf
          (Host.scatterAdd scatter_S2048_S65536x1_S65536_n_0_0_1
            (broadcastInDim S2048 ![] bcast_S_S2048 (constant (F := Ideal) S_ .f32 0x00000000#32))
            (broadcastInDim S65536x1 ![0] bcast_S65536_S65536x1_0 mol)
            (broadcastInDim S65536 ![] bcast_S_S65536 (constant (F := Ideal) S_ .f32 0x3F800000#32)))
          (broadcastInDim S2048 ![] bcast_S_S2048 (constant (F := Ideal) S_ .f32 0x3F800000#32)))))

/-- inp = bond features · W_iᵀ. -/
def inp (fb : RV S131072x147) (Wi : RV S300x147) : RV S131072x300 :=
  mm fb (transpose S147x300 [1, 0] Wi transposes_S300x147_S147x300_1_0)

/-- One message update: inp plus the bond differences times W_hᵀ, rectified. -/
def step (i0 u : RV S131072x300) (Wh : RV S300x300) : RV S131072x300 :=
  relu0 (addf (F := Ideal) (φ := .f32) i0 (mm u (transpose S300x300 [1, 0] Wh transposes_S300x300_S300x300_1_0)))

/-- The atoms' hidden states: features beside the incoming-message sums, times W_oᵀ, plus the bias, rectified. -/
def atom (fa : RV S65536x133) (am : RV S65536x300) (Wo : RV S300x433) (b : RV S300) : RV S65536x300 :=
  relu0 (addf (F := Ideal) (φ := .f32)
    (mm (concatenate S65536x433 1 [⟨S65536x133, fa⟩, ⟨S65536x300, am⟩] concatenates_S65536x133_S65536x300_S65536x433_d1)
      (transpose S433x300 [1, 0] Wo transposes_S300x433_S433x300_1_0))
    (broadcastInDim S65536x300 ![0, 1] bcast_S1x300_S65536x300_0_1 (broadcastInDim S1x300 ![1] bcast_S300_S1x300_1 b)))

/-- The encoder. -/
def G (fa : RV S65536x133) (fb : RV S131072x147) (a2b : IV S65536x6) (b2a b2revb : IV S131072) (mol : IV S65536)
    (Wi : RV S300x147) (Wh : RV S300x300) (Wo : RV S300x433) (b : RV S300) : RV S2048x300 :=
  tail (atom fa (aggr (step (inp fb Wi) (upd (step (inp fb Wi) (upd (relu0 (inp fb Wi)) a2b b2a b2revb) Wh) a2b b2a b2revb) Wh) a2b) Wo b) mol

end Cert.Mpn

end
-- ==== Proof.AtomLayer.lean ====
/-
  The kernel's split atom layer is the reference's atom layer.

  The kernel multiplies the atom features by the first 133 rows of W_oᵀ and the incoming-message sums by its last
  300 rows and adds the two products; the reference lays features and sums side by side and multiplies once by all
  433 rows. The contraction over the 433 positions is the sum of the contractions over the first 133 and the last
  300, so the two agree entry by entry. The bias is the same vector read as a one-row matrix on one side and
  broadcast down the rows on the other.
-/
import proofs.«160048_j18339510354321_2_alg».proof.Proof.Region3
import proofs.«160048_j18339510354321_2_alg».proof.Proof.Encoder
import Idealize.ShloMosaic.Lib.ValueLayout

noncomputable section

namespace Cert.Mpn

open Cert.ReferenceIdeal Cert.ReferenceIdeal.Gen Idealize.ShloMosaic Idealize.ShloMosaic.ValueIdx

theorem atom_eq (fa : RV S65536x133) (am : RV S65536x300) (Wo : RV S300x433) (b : RV S300)
    (hs1 : S433x300.Slices ![0, 0] Cert.KernelIdeal.S133x300) (hs2 : S433x300.Slices ![133, 0] S300x300) (hc : S300.ShapeCasts S1x300) :
    Cert.KernelIdeal.Region3.layer fa am
      (extractStridedSlice Cert.KernelIdeal.S133x300 ![0, 0] (transpose S433x300 [1, 0] Wo transposes_S300x433_S433x300_1_0) hs1)
      (extractStridedSlice S300x300 ![133, 0] (transpose S433x300 [1, 0] Wo transposes_S300x433_S433x300_1_0) hs2)
      (shapeCast S1x300 b hc) = atom fa am Wo b := by
  funext i
  have hW1 : ∀ (k : Fin 133) (q : Fin 300),
      extractStridedSlice Cert.KernelIdeal.S133x300 ![0, 0] (transpose S433x300 [1, 0] Wo transposes_S300x433_S433x300_1_0) hs1 (ix2 k q)
        = transpose S433x300 [1, 0] Wo transposes_S300x433_S433x300_1_0 (ix2 (Fin.castAdd 300 k) q) := fun k q =>
    extractStridedSlice_apply ![0, 0] _ hs1 (ix2 k q) (ix2 (Fin.castAdd 300 k) q) (fun a => match a with
      | ⟨0, _⟩ => by show k.val = 0 + k.val; omega
      | ⟨1, _⟩ => by show q.val = 0 + q.val; omega)
  have hW2 : ∀ (k : Fin 300) (q : Fin 300),
      extractStridedSlice S300x300 ![133, 0] (transpose S433x300 [1, 0] Wo transposes_S300x433_S433x300_1_0) hs2 (ix2 k q)
        = transpose S433x300 [1, 0] Wo transposes_S300x433_S433x300_1_0 (ix2 (Fin.natAdd 133 k) q) := fun k q =>
    extractStridedSlice_apply ![133, 0] _ hs2 (ix2 k q) (ix2 (Fin.natAdd 133 k) q) (fun a => match a with
      | ⟨0, _⟩ => by show 133 + k.val = 133 + k.val; rfl
      | ⟨1, _⟩ => by show q.val = 0 + q.val; omega)
  have hb1 : shapeCast S1x300 b hc (ix2 0 (i 1)) = b (ix1 (i 1)) :=
    shapeCast_apply b hc (ix2 0 (i 1)) (ix1 (i 1)) (by
      rw [Shape.rowMajor_val_one, Shape.rowMajor_val_two]
      show (i 1).val = 0 * 300 + (i 1).val
      omega)
  have hb2 : broadcastInDim S65536x300 ![0, 1] bcast_S1x300_S65536x300_0_1 (broadcastInDim S1x300 ![1] bcast_S300_S1x300_1 b) i = b (ix1 (i 1)) :=
    (broadcastInDim_apply _ bcast_S1x300_S65536x300_0_1 (broadcastInDim S1x300 ![1] bcast_S300_S1x300_1 b) i (ix2 0 (i 1)) (fun a => match a with
      | ⟨0, _⟩ => by show (0 : Nat) = if (1 : Nat) = 1 then 0 else _; rw [if_pos rfl]
      | ⟨1, _⟩ => by show (i 1).val = if (300 : Nat) = 1 then 0 else (i 1).val; rw [if_neg (by decide)])).trans
    (broadcastInDim_apply _ bcast_S300_S1x300_1 b (ix2 0 (i 1)) (ix1 (i 1)) (fun a => match a with
      | ⟨0, _⟩ => by show (i 1).val = if (300 : Nat) = 1 then 0 else (i 1).val; rw [if_neg (by decide)]))
  have hm := mm_concat fa am (transpose S433x300 [1, 0] Wo transposes_S300x433_S433x300_1_0)
    concatenates_S65536x133_S65536x300_S65536x433_d1 _ _ hW1 hW2 i
  show max ((mm fa _ i + mm am _ i) + shapeCast S1x300 b hc (ix2 0 (i 1))) _
    = max (mm (concatenate S65536x433 1 [⟨S65536x133, fa⟩, ⟨S65536x300, am⟩] concatenates_S65536x133_S65536x300_S65536x433_d1)
        (transpose S433x300 [1, 0] Wo transposes_S300x433_S433x300_1_0) i
      + broadcastInDim S65536x300 ![0, 1] bcast_S1x300_S65536x300_0_1 (broadcastInDim S1x300 ![1] bcast_S300_S1x300_1 b) i) _
  rw [hm, hb1, hb2]

end Cert.Mpn

end
-- ==== Proof.Walk.lean ====
/-
  The idealized kernel's result, read through the program.

  The kernel program alternates stretches of host operations with four regions. The memory at each boundary is the
  fold of what came before; this file reads the result buffer at the last boundary back through that fold. Each host
  stretch is the same gathers, neighbour sums and index arithmetic as the reference's, between changes of float
  format that are the identity over the extended reals; each region's output is the dense layer of the arrays it was
  entered with. Buffers nobody writes in between keep their contents: the arguments stay at their launch values,
  the transposed weights and inp are carried from where they were written to where they are read.
-/
import proofs.«160048_j18339510354321_2_alg».proof.Proof.Gen.KernelIdeal.Frame
import proofs.«160048_j18339510354321_2_alg».proof.Proof.Region0
import proofs.«160048_j18339510354321_2_alg».proof.Proof.Region1
import proofs.«160048_j18339510354321_2_alg».proof.Proof.Region2
import proofs.«160048_j18339510354321_2_alg».proof.Proof.Region3
import proofs.«160048_j18339510354321_2_alg».proof.Proof.Encoder
import proofs.«160048_j18339510354321_2_alg».proof.Proof.AtomLayer

set_option maxRecDepth 16384

noncomputable section

namespace Cert.KernelIdeal.Walk

open Cert.KernelIdeal Cert.KernelIdeal.Gen Cert.Mpn
open Idealize.ShloMosaic Idealize.ShloMosaic.TcCoe Idealize.ShloMosaic.StableHlo Idealize.SL.Sem

variable (m : (ℓ : Loc nD τ sig) → Buf (Elt Ideal) ℓ) (ρ : Dev nD → PrngReg)

/-! ## Buffers that keep their contents -/

theorem at1_main_arg2 (c : Dev nD) : W1 m ρ c (Proc.devRef .tc main_arg2) = m ((c : Thread nD τ).loc main_arg2) :=
  (show W1 m ρ c (Proc.devRef .tc main_arg2) = W0 m ρ c (Proc.devRef .tc main_arg2) from by
    show StableHlo.after hostOps0 (W0 m ρ c) (Proc.devRef .tc main_arg2) = _
    after_results_simp).trans rfl
theorem at2_main_arg2 (c : Dev nD) : W2 m ρ c (Proc.devRef .tc main_arg2) = m ((c : Thread nD τ).loc main_arg2) :=
  (W2_of_ne m ρ c main_arg2 (by decide)).trans (at1_main_arg2 m ρ c)
theorem at3_main_arg2 (c : Dev nD) : W3 m ρ c (Proc.devRef .tc main_arg2) = m ((c : Thread nD τ).loc main_arg2) :=
  (show W3 m ρ c (Proc.devRef .tc main_arg2) = W2 m ρ c (Proc.devRef .tc main_arg2) from by
    show StableHlo.after hostOps1 (W2 m ρ c) (Proc.devRef .tc main_arg2) = _
    after_results_simp).trans (at2_main_arg2 m ρ c)
theorem at4_main_arg2 (c : Dev nD) : W4 m ρ c (Proc.devRef .tc main_arg2) = m ((c : Thread nD τ).loc main_arg2) :=
  (W4_of_ne m ρ c main_arg2 (by decide)).trans (at3_main_arg2 m ρ c)
theorem at5_main_arg2 (c : Dev nD) : W5 m ρ c (Proc.devRef .tc main_arg2) = m ((c : Thread nD τ).loc main_arg2) :=
  (show W5 m ρ c (Proc.devRef .tc main_arg2) = W4 m ρ c (Proc.devRef .tc main_arg2) from by
    show StableHlo.after hostOps2 (W4 m ρ c) (Proc.devRef .tc main_arg2) = _
    after_results_simp).trans (at4_main_arg2 m ρ c)
theorem at6_main_arg2 (c : Dev nD) : W6 m ρ c (Proc.devRef .tc main_arg2) = m ((c : Thread nD τ).loc main_arg2) :=
  (W6_of_ne m ρ c main_arg2 (by decide)).trans (at5_main_arg2 m ρ c)
theorem at1_main_arg3 (c : Dev nD) : W1 m ρ c (Proc.devRef .tc main_arg3) = m ((c : Thread nD τ).loc main_arg3) :=
  (show W1 m ρ c (Proc.devRef .tc main_arg3) = W0 m ρ c (Proc.devRef .tc main_arg3) from by
    show StableHlo.after hostOps0 (W0 m ρ c) (Proc.devRef .tc main_arg3) = _
    after_results_simp).trans rfl
theorem at2_main_arg3 (c : Dev nD) : W2 m ρ c (Proc.devRef .tc main_arg3) = m ((c : Thread nD τ).loc main_arg3) :=
  (W2_of_ne m ρ c main_arg3 (by decide)).trans (at1_main_arg3 m ρ c)
theorem at3_main_arg3 (c : Dev nD) : W3 m ρ c (Proc.devRef .tc main_arg3) = m ((c : Thread nD τ).loc main_arg3) :=
  (show W3 m ρ c (Proc.devRef .tc main_arg3) = W2 m ρ c (Proc.devRef .tc main_arg3) from by
    show StableHlo.after hostOps1 (W2 m ρ c) (Proc.devRef .tc main_arg3) = _
    after_results_simp).trans (at2_main_arg3 m ρ c)
theorem at4_main_arg3 (c : Dev nD) : W4 m ρ c (Proc.devRef .tc main_arg3) = m ((c : Thread nD τ).loc main_arg3) :=
  (W4_of_ne m ρ c main_arg3 (by decide)).trans (at3_main_arg3 m ρ c)
theorem at1_main_arg4 (c : Dev nD) : W1 m ρ c (Proc.devRef .tc main_arg4) = m ((c : Thread nD τ).loc main_arg4) :=
  (show W1 m ρ c (Proc.devRef .tc main_arg4) = W0 m ρ c (Proc.devRef .tc main_arg4) from by
    show StableHlo.after hostOps0 (W0 m ρ c) (Proc.devRef .tc main_arg4) = _
    after_results_simp).trans rfl
theorem at2_main_arg4 (c : Dev nD) : W2 m ρ c (Proc.devRef .tc main_arg4) = m ((c : Thread nD τ).loc main_arg4) :=
  (W2_of_ne m ρ c main_arg4 (by decide)).trans (at1_main_arg4 m ρ c)
theorem at3_main_arg4 (c : Dev nD) : W3 m ρ c (Proc.devRef .tc main_arg4) = m ((c : Thread nD τ).loc main_arg4) :=
  (show W3 m ρ c (Proc.devRef .tc main_arg4) = W2 m ρ c (Proc.devRef .tc main_arg4) from by
    show StableHlo.after hostOps1 (W2 m ρ c) (Proc.devRef .tc main_arg4) = _
    after_results_simp).trans (at2_main_arg4 m ρ c)
theorem at4_main_arg4 (c : Dev nD) : W4 m ρ c (Proc.devRef .tc main_arg4) = m ((c : Thread nD τ).loc main_arg4) :=
  (W4_of_ne m ρ c main_arg4 (by decide)).trans (at3_main_arg4 m ρ c)
theorem at1_main_arg9 (c : Dev nD) : W1 m ρ c (Proc.devRef .tc main_arg9) = m ((c : Thread nD τ).loc main_arg9) :=
  (show W1 m ρ c (Proc.devRef .tc main_arg9) = W0 m ρ c (Proc.devRef .tc main_arg9) from by
    show StableHlo.after hostOps0 (W0 m ρ c) (Proc.devRef .tc main_arg9) = _
    after_results_simp).trans rfl
theorem at2_main_arg9 (c : Dev nD) : W2 m ρ c (Proc.devRef .tc main_arg9) = m ((c : Thread nD τ).loc main_arg9) :=
  (W2_of_ne m ρ c main_arg9 (by decide)).trans (at1_main_arg9 m ρ c)
theorem at3_main_arg9 (c : Dev nD) : W3 m ρ c (Proc.devRef .tc main_arg9) = m ((c : Thread nD τ).loc main_arg9) :=
  (show W3 m ρ c (Proc.devRef .tc main_arg9) = W2 m ρ c (Proc.devRef .tc main_arg9) from by
    show StableHlo.after hostOps1 (W2 m ρ c) (Proc.devRef .tc main_arg9) = _
    after_results_simp).trans (at2_main_arg9 m ρ c)
theorem at4_main_arg9 (c : Dev nD) : W4 m ρ c (Proc.devRef .tc main_arg9) = m ((c : Thread nD τ).loc main_arg9) :=
  (W4_of_ne m ρ c main_arg9 (by decide)).trans (at3_main_arg9 m ρ c)
theorem at5_main_arg9 (c : Dev nD) : W5 m ρ c (Proc.devRef .tc main_arg9) = m ((c : Thread nD τ).loc main_arg9) :=
  (show W5 m ρ c (Proc.devRef .tc main_arg9) = W4 m ρ c (Proc.devRef .tc main_arg9) from by
    show StableHlo.after hostOps2 (W4 m ρ c) (Proc.devRef .tc main_arg9) = _
    after_results_simp).trans (at4_main_arg9 m ρ c)
theorem at6_main_arg9 (c : Dev nD) : W6 m ρ c (Proc.devRef .tc main_arg9) = m ((c : Thread nD τ).loc main_arg9) :=
  (W6_of_ne m ρ c main_arg9 (by decide)).trans (at5_main_arg9 m ρ c)
theorem at1_main_arg0 (c : Dev nD) : W1 m ρ c (Proc.devRef .tc main_arg0) = m ((c : Thread nD τ).loc main_arg0) :=
  (show W1 m ρ c (Proc.devRef .tc main_arg0) = W0 m ρ c (Proc.devRef .tc main_arg0) from by
    show StableHlo.after hostOps0 (W0 m ρ c) (Proc.devRef .tc main_arg0) = _
    after_results_simp).trans rfl
theorem at2_main_arg0 (c : Dev nD) : W2 m ρ c (Proc.devRef .tc main_arg0) = m ((c : Thread nD τ).loc main_arg0) :=
  (W2_of_ne m ρ c main_arg0 (by decide)).trans (at1_main_arg0 m ρ c)
theorem at3_main_arg0 (c : Dev nD) : W3 m ρ c (Proc.devRef .tc main_arg0) = m ((c : Thread nD τ).loc main_arg0) :=
  (show W3 m ρ c (Proc.devRef .tc main_arg0) = W2 m ρ c (Proc.devRef .tc main_arg0) from by
    show StableHlo.after hostOps1 (W2 m ρ c) (Proc.devRef .tc main_arg0) = _
    after_results_simp).trans (at2_main_arg0 m ρ c)
theorem at4_main_arg0 (c : Dev nD) : W4 m ρ c (Proc.devRef .tc main_arg0) = m ((c : Thread nD τ).loc main_arg0) :=
  (W4_of_ne m ρ c main_arg0 (by decide)).trans (at3_main_arg0 m ρ c)
theorem at5_main_arg0 (c : Dev nD) : W5 m ρ c (Proc.devRef .tc main_arg0) = m ((c : Thread nD τ).loc main_arg0) :=
  (show W5 m ρ c (Proc.devRef .tc main_arg0) = W4 m ρ c (Proc.devRef .tc main_arg0) from by
    show StableHlo.after hostOps2 (W4 m ρ c) (Proc.devRef .tc main_arg0) = _
    after_results_simp).trans (at4_main_arg0 m ρ c)
theorem at6_main_arg0 (c : Dev nD) : W6 m ρ c (Proc.devRef .tc main_arg0) = m ((c : Thread nD τ).loc main_arg0) :=
  (W6_of_ne m ρ c main_arg0 (by decide)).trans (at5_main_arg0 m ρ c)
theorem at7_main_arg0 (c : Dev nD) : W7 m ρ c (Proc.devRef .tc main_arg0) = m ((c : Thread nD τ).loc main_arg0) :=
  (show W7 m ρ c (Proc.devRef .tc main_arg0) = W6 m ρ c (Proc.devRef .tc main_arg0) from by
    show StableHlo.after hostOps3 (W6 m ρ c) (Proc.devRef .tc main_arg0) = _
    after_results_simp).trans (at6_main_arg0 m ρ c)
theorem at1_main_arg5 (c : Dev nD) : W1 m ρ c (Proc.devRef .tc main_arg5) = m ((c : Thread nD τ).loc main_arg5) :=
  (show W1 m ρ c (Proc.devRef .tc main_arg5) = W0 m ρ c (Proc.devRef .tc main_arg5) from by
    show StableHlo.after hostOps0 (W0 m ρ c) (Proc.devRef .tc main_arg5) = _
    after_results_simp).trans rfl
theorem at2_main_arg5 (c : Dev nD) : W2 m ρ c (Proc.devRef .tc main_arg5) = m ((c : Thread nD τ).loc main_arg5) :=
  (W2_of_ne m ρ c main_arg5 (by decide)).trans (at1_main_arg5 m ρ c)
theorem at3_main_arg5 (c : Dev nD) : W3 m ρ c (Proc.devRef .tc main_arg5) = m ((c : Thread nD τ).loc main_arg5) :=
  (show W3 m ρ c (Proc.devRef .tc main_arg5) = W2 m ρ c (Proc.devRef .tc main_arg5) from by
    show StableHlo.after hostOps1 (W2 m ρ c) (Proc.devRef .tc main_arg5) = _
    after_results_simp).trans (at2_main_arg5 m ρ c)
theorem at4_main_arg5 (c : Dev nD) : W4 m ρ c (Proc.devRef .tc main_arg5) = m ((c : Thread nD τ).loc main_arg5) :=
  (W4_of_ne m ρ c main_arg5 (by decide)).trans (at3_main_arg5 m ρ c)
theorem at5_main_arg5 (c : Dev nD) : W5 m ρ c (Proc.devRef .tc main_arg5) = m ((c : Thread nD τ).loc main_arg5) :=
  (show W5 m ρ c (Proc.devRef .tc main_arg5) = W4 m ρ c (Proc.devRef .tc main_arg5) from by
    show StableHlo.after hostOps2 (W4 m ρ c) (Proc.devRef .tc main_arg5) = _
    after_results_simp).trans (at4_main_arg5 m ρ c)
theorem at6_main_arg5 (c : Dev nD) : W6 m ρ c (Proc.devRef .tc main_arg5) = m ((c : Thread nD τ).loc main_arg5) :=
  (W6_of_ne m ρ c main_arg5 (by decide)).trans (at5_main_arg5 m ρ c)
theorem at7_main_arg5 (c : Dev nD) : W7 m ρ c (Proc.devRef .tc main_arg5) = m ((c : Thread nD τ).loc main_arg5) :=
  (show W7 m ρ c (Proc.devRef .tc main_arg5) = W6 m ρ c (Proc.devRef .tc main_arg5) from by
    show StableHlo.after hostOps3 (W6 m ρ c) (Proc.devRef .tc main_arg5) = _
    after_results_simp).trans (at6_main_arg5 m ρ c)
theorem at8_main_arg5 (c : Dev nD) : W8 m ρ c (Proc.devRef .tc main_arg5) = m ((c : Thread nD τ).loc main_arg5) :=
  (W8_of_ne m ρ c main_arg5 (by decide)).trans (at7_main_arg5 m ρ c)
theorem at1_main_arg1 (c : Dev nD) : W1 m ρ c (Proc.devRef .tc main_arg1) = m ((c : Thread nD τ).loc main_arg1) :=
  (show W1 m ρ c (Proc.devRef .tc main_arg1) = W0 m ρ c (Proc.devRef .tc main_arg1) from by
    show StableHlo.after hostOps0 (W0 m ρ c) (Proc.devRef .tc main_arg1) = _
    after_results_simp).trans rfl
theorem keep2_main_v3 (c : Dev nD) : W2 m ρ c (Proc.devRef .tc main_v3) = W1 m ρ c (Proc.devRef .tc main_v3) :=
  (W2_of_ne m ρ c main_v3 (by decide))
theorem keep3_main_v3 (c : Dev nD) : W3 m ρ c (Proc.devRef .tc main_v3) = W1 m ρ c (Proc.devRef .tc main_v3) :=
  (show W3 m ρ c (Proc.devRef .tc main_v3) = W2 m ρ c (Proc.devRef .tc main_v3) from by
    show StableHlo.after hostOps1 (W2 m ρ c) (Proc.devRef .tc main_v3) = _
    after_results_simp).trans (keep2_main_v3 m ρ c)
theorem keep4_main_v3 (c : Dev nD) : W4 m ρ c (Proc.devRef .tc main_v3) = W1 m ρ c (Proc.devRef .tc main_v3) :=
  ((W4_arr m ρ c 2).trans (((dat1 (V3 m ρ) c).arrAt_in 2 rfl _).trans (A_eq1 (V3 m ρ) c 2))).trans (keep3_main_v3 m ρ c)
theorem keep5_main_v3 (c : Dev nD) : W5 m ρ c (Proc.devRef .tc main_v3) = W1 m ρ c (Proc.devRef .tc main_v3) :=
  (show W5 m ρ c (Proc.devRef .tc main_v3) = W4 m ρ c (Proc.devRef .tc main_v3) from by
    show StableHlo.after hostOps2 (W4 m ρ c) (Proc.devRef .tc main_v3) = _
    after_results_simp).trans (keep4_main_v3 m ρ c)
theorem keep2_main_v6 (c : Dev nD) : W2 m ρ c (Proc.devRef .tc main_v6) = W1 m ρ c (Proc.devRef .tc main_v6) :=
  (W2_of_ne m ρ c main_v6 (by decide))
theorem keep3_main_v6 (c : Dev nD) : W3 m ρ c (Proc.devRef .tc main_v6) = W1 m ρ c (Proc.devRef .tc main_v6) :=
  (show W3 m ρ c (Proc.devRef .tc main_v6) = W2 m ρ c (Proc.devRef .tc main_v6) from by
    show StableHlo.after hostOps1 (W2 m ρ c) (Proc.devRef .tc main_v6) = _
    after_results_simp).trans (keep2_main_v6 m ρ c)
theorem keep4_main_v6 (c : Dev nD) : W4 m ρ c (Proc.devRef .tc main_v6) = W1 m ρ c (Proc.devRef .tc main_v6) :=
  (W4_of_ne m ρ c main_v6 (by decide)).trans (keep3_main_v6 m ρ c)
theorem keep5_main_v6 (c : Dev nD) : W5 m ρ c (Proc.devRef .tc main_v6) = W1 m ρ c (Proc.devRef .tc main_v6) :=
  (show W5 m ρ c (Proc.devRef .tc main_v6) = W4 m ρ c (Proc.devRef .tc main_v6) from by
    show StableHlo.after hostOps2 (W4 m ρ c) (Proc.devRef .tc main_v6) = _
    after_results_simp).trans (keep4_main_v6 m ρ c)
theorem keep6_main_v6 (c : Dev nD) : W6 m ρ c (Proc.devRef .tc main_v6) = W1 m ρ c (Proc.devRef .tc main_v6) :=
  (W6_of_ne m ρ c main_v6 (by decide)).trans (keep5_main_v6 m ρ c)
theorem keep7_main_v6 (c : Dev nD) : W7 m ρ c (Proc.devRef .tc main_v6) = W1 m ρ c (Proc.devRef .tc main_v6) :=
  (show W7 m ρ c (Proc.devRef .tc main_v6) = W6 m ρ c (Proc.devRef .tc main_v6) from by
    show StableHlo.after hostOps3 (W6 m ρ c) (Proc.devRef .tc main_v6) = _
    after_results_simp).trans (keep6_main_v6 m ρ c)
theorem keep2_main_v8 (c : Dev nD) : W2 m ρ c (Proc.devRef .tc main_v8) = W1 m ρ c (Proc.devRef .tc main_v8) :=
  (W2_of_ne m ρ c main_v8 (by decide))
theorem keep3_main_v8 (c : Dev nD) : W3 m ρ c (Proc.devRef .tc main_v8) = W1 m ρ c (Proc.devRef .tc main_v8) :=
  (show W3 m ρ c (Proc.devRef .tc main_v8) = W2 m ρ c (Proc.devRef .tc main_v8) from by
    show StableHlo.after hostOps1 (W2 m ρ c) (Proc.devRef .tc main_v8) = _
    after_results_simp).trans (keep2_main_v8 m ρ c)
theorem keep4_main_v8 (c : Dev nD) : W4 m ρ c (Proc.devRef .tc main_v8) = W1 m ρ c (Proc.devRef .tc main_v8) :=
  (W4_of_ne m ρ c main_v8 (by decide)).trans (keep3_main_v8 m ρ c)
theorem keep5_main_v8 (c : Dev nD) : W5 m ρ c (Proc.devRef .tc main_v8) = W1 m ρ c (Proc.devRef .tc main_v8) :=
  (show W5 m ρ c (Proc.devRef .tc main_v8) = W4 m ρ c (Proc.devRef .tc main_v8) from by
    show StableHlo.after hostOps2 (W4 m ρ c) (Proc.devRef .tc main_v8) = _
    after_results_simp).trans (keep4_main_v8 m ρ c)
theorem keep6_main_v8 (c : Dev nD) : W6 m ρ c (Proc.devRef .tc main_v8) = W1 m ρ c (Proc.devRef .tc main_v8) :=
  (W6_of_ne m ρ c main_v8 (by decide)).trans (keep5_main_v8 m ρ c)
theorem keep7_main_v8 (c : Dev nD) : W7 m ρ c (Proc.devRef .tc main_v8) = W1 m ρ c (Proc.devRef .tc main_v8) :=
  (show W7 m ρ c (Proc.devRef .tc main_v8) = W6 m ρ c (Proc.devRef .tc main_v8) from by
    show StableHlo.after hostOps3 (W6 m ρ c) (Proc.devRef .tc main_v8) = _
    after_results_simp).trans (keep6_main_v8 m ρ c)
theorem keep3_main_v9_0 (c : Dev nD) : W3 m ρ c (Proc.devRef .tc main_v9_0) = W2 m ρ c (Proc.devRef .tc main_v9_0) :=
  (show W3 m ρ c (Proc.devRef .tc main_v9_0) = W2 m ρ c (Proc.devRef .tc main_v9_0) from by
    show StableHlo.after hostOps1 (W2 m ρ c) (Proc.devRef .tc main_v9_0) = _
    after_results_simp)
theorem keep4_main_v9_0 (c : Dev nD) : W4 m ρ c (Proc.devRef .tc main_v9_0) = W2 m ρ c (Proc.devRef .tc main_v9_0) :=
  ((W4_arr m ρ c 0).trans (((dat1 (V3 m ρ) c).arrAt_in 0 rfl _).trans (A_eq1 (V3 m ρ) c 0))).trans (keep3_main_v9_0 m ρ c)
theorem keep5_main_v9_0 (c : Dev nD) : W5 m ρ c (Proc.devRef .tc main_v9_0) = W2 m ρ c (Proc.devRef .tc main_v9_0) :=
  (show W5 m ρ c (Proc.devRef .tc main_v9_0) = W4 m ρ c (Proc.devRef .tc main_v9_0) from by
    show StableHlo.after hostOps2 (W4 m ρ c) (Proc.devRef .tc main_v9_0) = _
    after_results_simp).trans (keep4_main_v9_0 m ρ c)

/-! ## The encoder's intermediate arrays, as functions of the launch memory -/

/-- inp. -/
def INP (c : Dev nD) : RV Cert.ReferenceIdeal.S131072x300 := inp (m ((c : Thread nD τ).loc main_arg1)) (m ((c : Thread nD τ).loc main_arg6))
/-- The bond differences from messages msg. -/
def UPD (c : Dev nD) (msg : RV Cert.ReferenceIdeal.S131072x300) : RV Cert.ReferenceIdeal.S131072x300 := upd msg (m ((c : Thread nD τ).loc main_arg2)) (m ((c : Thread nD τ).loc main_arg3)) (m ((c : Thread nD τ).loc main_arg4))
/-- The messages after the first update. -/
def M1 (c : Dev nD) : RV Cert.ReferenceIdeal.S131072x300 := step (INP m c) (UPD m c (relu0 (INP m c))) (m ((c : Thread nD τ).loc main_arg7))
/-- The messages after the second update. -/
def M2 (c : Dev nD) : RV Cert.ReferenceIdeal.S131072x300 := step (INP m c) (UPD m c (M1 m c)) (m ((c : Thread nD τ).loc main_arg7))

/-! ## The first host stretch: the transposed weights -/

theorem v1_at1 (c : Dev nD) : W1 m ρ c (Proc.devRef .tc main_v1) = transpose S147x300 [1, 0] (m ((c : Thread nD τ).loc main_arg6)) transposes_S300x147_S147x300_1_0 := by
  show StableHlo.after hostOps0 (W0 m ρ c) (Proc.devRef .tc main_v1) = _
  after_results_simp
  rfl
theorem v3_at1 (c : Dev nD) : W1 m ρ c (Proc.devRef .tc main_v3) = transpose S300x300 [1, 0] (m ((c : Thread nD τ).loc main_arg7)) transposes_S300x300_S300x300_1_0 := by
  show StableHlo.after hostOps0 (W0 m ρ c) (Proc.devRef .tc main_v3) = _
  after_results_simp
  rfl
theorem v6_at1 (c : Dev nD) : W1 m ρ c (Proc.devRef .tc main_v6)
    = extractStridedSlice S133x300 ![0, 0] (transpose S433x300 [1, 0] (m ((c : Thread nD τ).loc main_arg8)) transposes_S300x433_S433x300_1_0) slices_S433x300_S133x300_0_0 := by
  show StableHlo.after hostOps0 (W0 m ρ c) (Proc.devRef .tc main_v6) = _
  after_results_simp
  rfl
theorem v8_at1 (c : Dev nD) : W1 m ρ c (Proc.devRef .tc main_v8)
    = extractStridedSlice S300x300 ![133, 0] (transpose S433x300 [1, 0] (m ((c : Thread nD τ).loc main_arg8)) transposes_S300x433_S433x300_1_0) slices_S433x300_S300x300_133_0 := by
  show StableHlo.after hostOps0 (W0 m ρ c) (Proc.devRef .tc main_v8) = _
  after_results_simp
  rfl

/-! ## The first region: inp and the first messages -/

theorem inp_at2 (c : Dev nD) : W2 m ρ c (Proc.devRef .tc main_v9_0) = INP m c := by
  rw [show W2 m ρ c (Proc.devRef .tc main_v9_0) = (dat0 (V1 m ρ) c).arrAt 2 cfg0.N from W2_arr m ρ c 2, Region0.final2 (V1 m ρ) c]
  show mm (W1 m ρ c (Proc.devRef .tc main_arg1)) (W1 m ρ c (Proc.devRef .tc main_v1)) = _
  rw [at1_main_arg1 m ρ c, v1_at1 m ρ c]
  rfl
theorem msg0_at2 (c : Dev nD) : W2 m ρ c (Proc.devRef .tc main_v9_1) = relu0 (INP m c) := by
  rw [show W2 m ρ c (Proc.devRef .tc main_v9_1) = (dat0 (V1 m ρ) c).arrAt 3 cfg0.N from W2_arr m ρ c 3, Region0.final3 (V1 m ρ) c]
  show relu0 (mm (W1 m ρ c (Proc.devRef .tc main_arg1)) (W1 m ρ c (Proc.devRef .tc main_v1))) = _
  rw [at1_main_arg1 m ρ c, v1_at1 m ρ c]
  rfl

/-! ## The first message update -/

theorem upd_at3 (c : Dev nD) : W3 m ρ c (Proc.devRef .tc main_v37) = UPD m c (relu0 (INP m c)) := by
  have h : W3 m ρ c (Proc.devRef .tc main_v37) = upd (W2 m ρ c (Proc.devRef .tc main_v9_1)) (W2 m ρ c (Proc.devRef .tc main_arg2)) (W2 m ρ c (Proc.devRef .tc main_arg3)) (W2 m ρ c (Proc.devRef .tc main_arg4)) := by
    show StableHlo.after hostOps1 (W2 m ρ c) (Proc.devRef .tc main_v37) = _
    after_results_simp
    rfl
  rw [h, msg0_at2 m ρ c, at2_main_arg2 m ρ c, at2_main_arg3 m ρ c, at2_main_arg4 m ρ c]
  rfl
theorem msg1_at4 (c : Dev nD) : W4 m ρ c (Proc.devRef .tc main_v38) = M1 m c := by
  rw [show W4 m ρ c (Proc.devRef .tc main_v38) = (dat1 (V3 m ρ) c).arrAt 3 cfg1.N from W4_arr m ρ c 3, Region1.final3 (V3 m ρ) c]
  show Region1.layer (W3 m ρ c (Proc.devRef .tc main_v9_0)) (W3 m ρ c (Proc.devRef .tc main_v37)) (W3 m ρ c (Proc.devRef .tc main_v3)) = _
  rw [keep3_main_v9_0 m ρ c, inp_at2 m ρ c, upd_at3 m ρ c, keep3_main_v3 m ρ c, v3_at1 m ρ c]
  rfl

/-! ## The second message update -/

theorem upd_at5 (c : Dev nD) : W5 m ρ c (Proc.devRef .tc main_v66) = UPD m c (M1 m c) := by
  have h : W5 m ρ c (Proc.devRef .tc main_v66) = upd (W4 m ρ c (Proc.devRef .tc main_v38)) (W4 m ρ c (Proc.devRef .tc main_arg2)) (W4 m ρ c (Proc.devRef .tc main_arg3)) (W4 m ρ c (Proc.devRef .tc main_arg4)) := by
    show StableHlo.after hostOps2 (W4 m ρ c) (Proc.devRef .tc main_v66) = _
    after_results_simp
    rfl
  rw [h, msg1_at4 m ρ c, at4_main_arg2 m ρ c, at4_main_arg3 m ρ c, at4_main_arg4 m ρ c]
  rfl
theorem msg2_at6 (c : Dev nD) : W6 m ρ c (Proc.devRef .tc main_v67) = M2 m c := by
  rw [show W6 m ρ c (Proc.devRef .tc main_v67) = (dat2 (V5 m ρ) c).arrAt 3 cfg2.N from W6_arr m ρ c 3, Region2.final3 (V5 m ρ) c]
  show Region2.layer (W5 m ρ c (Proc.devRef .tc main_v9_0)) (W5 m ρ c (Proc.devRef .tc main_v66)) (W5 m ρ c (Proc.devRef .tc main_v3)) = _
  rw [keep5_main_v9_0 m ρ c, inp_at2 m ρ c, upd_at5 m ρ c, keep5_main_v3 m ρ c, v3_at1 m ρ c]
  rfl

/-! ## The atoms' hidden states -/

theorem am_at7 (c : Dev nD) : W7 m ρ c (Proc.devRef .tc main_v77) = aggr (M2 m c) (m ((c : Thread nD τ).loc main_arg2)) := by
  have h : W7 m ρ c (Proc.devRef .tc main_v77) = aggr (W6 m ρ c (Proc.devRef .tc main_v67)) (W6 m ρ c (Proc.devRef .tc main_arg2)) := by
    show StableHlo.after hostOps3 (W6 m ρ c) (Proc.devRef .tc main_v77) = _
    after_results_simp
    rfl
  rw [h, msg2_at6 m ρ c, at6_main_arg2 m ρ c]
theorem bias_at7 (c : Dev nD) : W7 m ρ c (Proc.devRef .tc main_v78) = shapeCast S1x300 (m ((c : Thread nD τ).loc main_arg9)) shapeCasts_S300_S1x300 := by
  have h : W7 m ρ c (Proc.devRef .tc main_v78) = shapeCast S1x300 (W6 m ρ c (Proc.devRef .tc main_arg9)) shapeCasts_S300_S1x300 := by
    show StableHlo.after hostOps3 (W6 m ρ c) (Proc.devRef .tc main_v78) = _
    after_results_simp
    rfl
  rw [h, at6_main_arg9 m ρ c]
theorem atom_at8 (c : Dev nD) : W8 m ρ c (Proc.devRef .tc main_v79) = atom (m ((c : Thread nD τ).loc main_arg0)) (aggr (M2 m c) (m ((c : Thread nD τ).loc main_arg2))) (m ((c : Thread nD τ).loc main_arg8)) (m ((c : Thread nD τ).loc main_arg9)) := by
  rw [show W8 m ρ c (Proc.devRef .tc main_v79) = (dat3 (V7 m ρ) c).arrAt 5 cfg3.N from W8_arr m ρ c 5, Region3.final5 (V7 m ρ) c]
  show Region3.layer (W7 m ρ c (Proc.devRef .tc main_arg0)) (W7 m ρ c (Proc.devRef .tc main_v77)) (W7 m ρ c (Proc.devRef .tc main_v6)) (W7 m ρ c (Proc.devRef .tc main_v8)) (W7 m ρ c (Proc.devRef .tc main_v78)) = _
  rw [at7_main_arg0 m ρ c, am_at7 m ρ c, keep7_main_v6 m ρ c, v6_at1 m ρ c, keep7_main_v8 m ρ c, v8_at1 m ρ c, bias_at7 m ρ c]
  exact atom_eq _ _ _ _ _ _ _

/-! ## The readout -/

/-- The result buffer at the last boundary is the encoder of the launch arguments. -/
theorem result_eq (c : Dev nD) : W9 m ρ c (Proc.devRef .tc main_v91)
    = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  have h : W9 m ρ c (Proc.devRef .tc main_v91) = tail (W8 m ρ c (Proc.devRef .tc main_v79)) (W8 m ρ c (Proc.devRef .tc main_arg5)) := by
    show StableHlo.after hostOps4 (W8 m ρ c) (Proc.devRef .tc main_v91) = _
    after_results_simp
    rfl
  rw [h, atom_at8 m ρ c, at8_main_arg5 m ρ c]
  rfl

end Cert.KernelIdeal.Walk

end
-- ==== Proof.RefIsG.lean ====
/-
  The reference's result is the encoder of its arguments.

  The reference program is host operations only, and its generated run states the result as the operations'
  composed term of the launch arguments. That term is the encoder: the three dot_generals are matrix products read
  entry by entry, the three rectifiers are a maximum with a broadcast zero, and everything else is the same
  operations in the same order.
-/
import proofs.«160048_j18339510354321_2_alg».proof.Proof.Gen.ReferenceIdeal.Run
import proofs.«160048_j18339510354321_2_alg».proof.Proof.Encoder

set_option maxRecDepth 16384

noncomputable section

namespace Cert.ReferenceIdeal.RefValue

open Cert.ReferenceIdeal Cert.ReferenceIdeal.Gen Cert.ReferenceIdeal.Value Cert.Mpn Cert.LibPlainDot
open Idealize.ShloMosaic Idealize.ShloMosaic.TcCoe Idealize.SL.Sem

theorem plainA : IsPlain dot_S131072x147_S147x300_S131072x300_1_0_0_1_n_n := ⟨rfl, rfl, rfl, rfl, rfl, rfl⟩
theorem plainB : IsPlain dot_S131072x300_S300x300_S131072x300_1_0_0_1_n_n := ⟨rfl, rfl, rfl, rfl, rfl, rfl⟩
theorem plainC : IsPlain dot_S65536x433_S433x300_S65536x300_1_0_0_1_n_n := ⟨rfl, rfl, rfl, rfl, rfl, rfl⟩

/-! ## The dense layers in the host's own spelling -/

/-- The host's rectifier on a bond array: a maximum with a scalar zero broadcast to every entry. -/
def reluH (x : RV S131072x300) : RV S131072x300 :=
  maximumf (F := Ideal) (φ := .f32) x (broadcastInDim S131072x300 ![] bcast_S_S131072x300 (constant (F := Ideal) S_ .f32 0x00000000#32))

def inpH (fb : RV S131072x147) (Wi : RV S300x147) : RV S131072x300 :=
  Host.dotGeneral (F := Ideal) (φ₁ := .f32) (φ₂ := .f32) dot_S131072x147_S147x300_S131072x300_1_0_0_1_n_n none fb (transpose S147x300 [1, 0] Wi transposes_S300x147_S147x300_1_0)

def stepH (i0 u : RV S131072x300) (Wh : RV S300x300) : RV S131072x300 :=
  reluH (addf (F := Ideal) (φ := .f32) i0
    (Host.dotGeneral (F := Ideal) (φ₁ := .f32) (φ₂ := .f32) dot_S131072x300_S300x300_S131072x300_1_0_0_1_n_n none u (transpose S300x300 [1, 0] Wh transposes_S300x300_S300x300_1_0)))

def atomH (fa : RV S65536x133) (am : RV S65536x300) (Wo : RV S300x433) (b : RV S300) : RV S65536x300 :=
  maximumf (F := Ideal) (φ := .f32)
    (addf (F := Ideal) (φ := .f32)
      (Host.dotGeneral (F := Ideal) (φ₁ := .f32) (φ₂ := .f32) dot_S65536x433_S433x300_S65536x300_1_0_0_1_n_n none
        (concatenate S65536x433 1 [⟨S65536x133, fa⟩, ⟨S65536x300, am⟩] concatenates_S65536x133_S65536x300_S65536x433_d1)
        (transpose S433x300 [1, 0] Wo transposes_S300x433_S433x300_1_0))
      (broadcastInDim S65536x300 ![0, 1] bcast_S1x300_S65536x300_0_1 (broadcastInDim S1x300 ![1] bcast_S300_S1x300_1 b)))
    (broadcastInDim S65536x300 ![] bcast_S_S65536x300 (constant (F := Ideal) S_ .f32 0x00000000#32))

/-- The encoder with the dense layers in the host's spelling. -/
def Gh (fa : RV S65536x133) (fb : RV S131072x147) (a2b : IV S65536x6) (b2a b2revb : IV S131072) (mol : IV S65536)
    (Wi : RV S300x147) (Wh : RV S300x300) (Wo : RV S300x433) (b : RV S300) : RV S2048x300 :=
  tail (atomH fa (aggr (stepH (inpH fb Wi) (upd (stepH (inpH fb Wi) (upd (reluH (inpH fb Wi)) a2b b2a b2revb) Wh) a2b b2a b2revb) Wh) a2b) Wo b) mol

theorem reluH_eq (x : RV S131072x300) : reluH x = relu0 x := by
  funext i
  rfl

theorem inpH_eq (fb : RV S131072x147) (Wi : RV S300x147) : inpH fb Wi = inp fb Wi :=
  dotGeneral_eq_mm _ plainA _ _

theorem stepH_eq (i0 u : RV S131072x300) (Wh : RV S300x300) : stepH i0 u Wh = step i0 u Wh := by
  unfold stepH step
  rw [reluH_eq, dotGeneral_eq_mm _ plainB]

theorem atomH_eq (fa : RV S65536x133) (am : RV S65536x300) (Wo : RV S300x433) (b : RV S300) : atomH fa am Wo b = atom fa am Wo b := by
  unfold atomH atom
  rw [dotGeneral_eq_mm _ plainC]
  funext i
  rfl

theorem Gh_eq (fa : RV S65536x133) (fb : RV S131072x147) (a2b : IV S65536x6) (b2a b2revb : IV S131072) (mol : IV S65536)
    (Wi : RV S300x147) (Wh : RV S300x300) (Wo : RV S300x433) (b : RV S300) :
    Gh fa fb a2b b2a b2revb mol Wi Wh Wo b = G fa fb a2b b2a b2revb mol Wi Wh Wo b := by
  unfold Gh G
  rw [inpH_eq, reluH_eq, stepH_eq, stepH_eq, atomH_eq]

set_option maxHeartbeats 4000000 in
/-- The run's result term is the encoder, in the host's spelling, of the launch arguments: the same operations. -/
theorem res_eq_h (m : (ℓ : Loc nD τ sig) → Buf (Elt Ideal) ℓ) (c : Dev nD) :
    res_main_v83 (F := Ideal) m c
      = Gh (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  unfold res_main_v83 Gh
  rfl

/-- The run's result term is the encoder of the launch arguments. -/
theorem res_eq (m : (ℓ : Loc nD τ sig) → Buf (Elt Ideal) ℓ) (c : Dev nD) :
    res_main_v83 (F := Ideal) m c
      = G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  (res_eq_h m c).trans (Gh_eq _ _ _ _ _ _ _ _ _ _)

end Cert.ReferenceIdeal.RefValue

end
-- ==== Proof.lean ====
/-
  A message-passing encoder for molecular graphs (bond-centred messages, two update rounds, a per-molecule mean
  readout), as a kernel of four dense-layer regions among host gathers and scatters, against its plain reference.

  Over the extended reals both programs compute one function of the ten arguments, the encoder G:
  inp = f_bonds · W_iᵀ; messages = relu inp; twice, messages = relu (inp + (a_message[b2a] - messages[b2revb]) · W_hᵀ)
  with a_message the sum of each atom's six incoming messages; atom_hiddens = relu ([f_atoms, a_message] · W_oᵀ + b);
  and each molecule's vector is the sum of its atoms' hidden states over max(count, 1). The kernel stores
  intermediate arrays in a narrower float format, which changes nothing over the extended reals; it tiles the
  dense layers over blocks of 2048 rows, which changes nothing since each block's rows depend only on the same rows
  of the inputs; and it splits the last contraction over 433 positions into 133 + 300, which is associativity and
  commutativity of addition. No step needs the inputs to be finite.

  The three frames: the two kernels' are the generated frame certificates; the reference's is its generated run
  with the result dropped. The idealization rewrote nothing, so it is preserved trivially.
-/
import proofs.«160048_j18339510354321_2_alg».proof.Defs
import proofs.«160048_j18339510354321_2_alg».proof.Proof.Gen.Kernel
import proofs.«160048_j18339510354321_2_alg».proof.Proof.Gen.Kernel.Skeleton
import proofs.«160048_j18339510354321_2_alg».proof.Proof.Gen.Kernel.Launch
import proofs.«160048_j18339510354321_2_alg».proof.Proof.Gen.Kernel.Points
import proofs.«160048_j18339510354321_2_alg».proof.Proof.Gen.Kernel.Frame
import proofs.«160048_j18339510354321_2_alg».proof.Proof.Gen.KernelIdeal
import proofs.«160048_j18339510354321_2_alg».proof.Proof.Gen.KernelIdeal.Skeleton
import proofs.«160048_j18339510354321_2_alg».proof.Proof.Gen.KernelIdeal.Launch
import proofs.«160048_j18339510354321_2_alg».proof.Proof.Gen.KernelIdeal.Points
import proofs.«160048_j18339510354321_2_alg».proof.Proof.Gen.KernelIdeal.Frame
import proofs.«160048_j18339510354321_2_alg».proof.Proof.Gen.ReferenceIdeal
import proofs.«160048_j18339510354321_2_alg».proof.Proof.Gen.Pre_finite_inputs
import proofs.«160048_j18339510354321_2_alg».proof.Proof.Gen.ReferenceIdeal.Run
import proofs.«160048_j18339510354321_2_alg».proof.Proof.RunAll
import proofs.«160048_j18339510354321_2_alg».proof.Proof.Walk
import proofs.«160048_j18339510354321_2_alg».proof.Proof.RefIsG
import Idealize.ShloMosaic.Adequacy
import Idealize.ShloMosaic.Init

set_option maxRecDepth 16384

noncomputable section

namespace Cert.Proof

open Idealize.ShloMosaic Idealize.SL.Sem Cert.Kernel

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the encoder of the (agreeing) arguments in their result buffers. -/
theorem algebraic : Cert.algebraic_KernelIdeal_ReferenceIdeal := by
  intro m ρ m' ρ' _ hagree
  refine ⟨fun c => Cert.Mpn.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Walk.result_eq m ρ c), (h c).2⟩)
      (Cert.KernelIdeal.RunAll.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9⟩ := hagree c
    rw [Cert.ReferenceIdeal.RefValue.res_eq m' c, e0, e1, e2, e3, e4, e5, e6, e7, e8, e9]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
